-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4 : Shape := ⟨2, ![200000, 4]⟩
abbrev S2x6400000 : Shape := ⟨2, ![2, 6400000]⟩
abbrev S200000 : Shape := ⟨1, ![200000]⟩
abbrev S4x16 : Shape := ⟨2, ![4, 16]⟩
abbrev S16 : Shape := ⟨1, ![16]⟩
abbrev S16x2 : Shape := ⟨2, ![16, 2]⟩
abbrev S2 : Shape := ⟨1, ![2]⟩
abbrev S2x2 : Shape := ⟨2, ![2, 2]⟩
abbrev S_ : Shape := ⟨0, ![]⟩

class Facts : Prop where
  bcast_S_S200000x4 : S_.BroadcastsInDim S200000x4 (![] : Fin 0 → Fin S200000x4.rank)
  reducesTo_S200000x4_S_d0_1 : S200000x4.ReducesTo [0, 1] S_
  h_S_ : 0 < S_.numel
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_

variable [Facts]

def fn_part1 {F : FTy → Type} [FloatOps F] (main_arg6 : FVec F S2 .f32) (main_arg7 : FVec F S2x2 .f32) (main_arg8 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x2 .f32 := Host.absf main_arg7
  let main_cst_8 : FVec F S_ .f32 := constant S_ .f32 0x7F800000#32
  let main_v25 : FVec F S2x2 .f32 := broadcastInDim S2x2 ![] bcast_S_S2x2 main_cst_8
  let main_v26 : IVec S2x2 1 := cmpf .olt main_v24 main_v25
  let main_c_9 : IVec S_ 1 := constantI S_ 1 1#1
  let main_v27 : IVec S_ 1 := (fun x v => Host.reduce IntOp.andi x v reducesTo_S2x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S200000x4 .f32) (main_arg1 : IVec S2x6400000 32) (main_arg2 : IVec S200000 32) (main_arg3 : FVec F S4x16 .f32) (main_arg4 : FVec F S16 .f32) (main_arg5 : FVec F S16x2 .f32) (main_arg6 : FVec F S2 .f32) (main_arg7 : FVec F S2x2 .f32) (main_arg8 : FVec F S2 .f32) : IVec S_ 1 :=
  let main_v0 : FVec F S200000x4 .f32 := Host.absf main_arg0
  let main_cst : FVec F S_ .f32 := constant S_ .f32 0x7F800000#32
  let main_v1 : FVec F S200000x4 .f32 := broadcastInDim S200000x4 ![] bcast_S_S200000x4 main_cst
  let main_v2 : IVec S200000x4 1 := cmpf .olt main_v0 main_v1
  let main_c : IVec S_ 1 := constantI S_ 1 1#1
  let main_v3 : IVec S_ 1 := (fun x v => Host.reduce IntOp.andi x v reducesTo_S200000x4_S_d0_1 h_S_) main_v2 main_c
  let main_v4 : FVec F S4x16 .f32 := Host.absf main_arg3
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg5
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg6 main_arg7 main_arg8 main_v13 main_v16
-- ==== Kernel.lean ====
abbrev S200000x4 : Shape := ⟨2, ![200000, 4]⟩
abbrev S2x6400000 : Shape := ⟨2, ![2, 6400000]⟩
abbrev S200000 : Shape := ⟨1, ![200000]⟩
abbrev S4x16 : Shape := ⟨2, ![4, 16]⟩
abbrev S16 : Shape := ⟨1, ![16]⟩
abbrev S16x2 : Shape := ⟨2, ![16, 2]⟩
abbrev S2 : Shape := ⟨1, ![2]⟩
abbrev S2x2 : Shape := ⟨2, ![2, 2]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S20000x4 : Shape := ⟨2, ![20000, 4]⟩
abbrev S20000x16 : Shape := ⟨2, ![20000, 16]⟩
abbrev S6600000x16 : Shape := ⟨2, ![6600000, 16]⟩
abbrev S1x16 : Shape := ⟨2, ![1, 16]⟩
abbrev S200000x2 : Shape := ⟨2, ![200000, 2]⟩
abbrev S20000x2 : Shape := ⟨2, ![20000, 2]⟩
abbrev S6600000x2 : Shape := ⟨2, ![6600000, 2]⟩
abbrev S1x2 : Shape := ⟨2, ![1, 2]⟩
abbrev S256x2 : Shape := ⟨2, ![256, 2]⟩
abbrev S200000x1 : Shape := ⟨2, ![200000, 1]⟩
abbrev S256 : Shape := ⟨1, ![256]⟩
abbrev S256x1 : Shape := ⟨2, ![256, 1]⟩

abbrev nBuf : Space → Nat
  | .hbm => 103
  | .vmem => 18
  | .smem => 0
  | _ => 0

abbrev bufTy : (tb : Table) → Fin (tcTables nBuf tb) → BufTy
  | .hbm, ⟨0, _⟩ => ⟨S200000x4, .f32⟩
  | .hbm, ⟨1, _⟩ => ⟨S2x6400000, .i32⟩
  | .hbm, ⟨2, _⟩ => ⟨S200000, .i32⟩
  | .hbm, ⟨3, _⟩ => ⟨S4x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S2x2, .f32⟩
  | .hbm, ⟨8, _⟩ => ⟨S2, .f32⟩
  | .hbm, ⟨9, _⟩ => ⟨S200000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S1x6400000, .i32⟩
  | .hbm, ⟨14, _⟩ => ⟨S6400000, .i32⟩
  | .hbm, ⟨15, _⟩ => ⟨S6600000, .i32⟩
  | .hbm, ⟨16, _⟩ => ⟨S_, .f32⟩
  | .hbm, ⟨17, _⟩ => ⟨S6600000, .f32⟩
  | .hbm, ⟨18, _⟩ => ⟨S_, .f32⟩
  | .hbm, ⟨19, _⟩ => ⟨S200000, .f32⟩
  | .hbm, ⟨20, _⟩ => ⟨S6600000x1, .i32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .i1⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S6600000, .i32⟩
  | .hbm, ⟨32, _⟩ => ⟨S6600000, .i1⟩
  | .hbm, ⟨33, _⟩ => ⟨S_, .i32⟩
  | .hbm, ⟨34, _⟩ => ⟨S6600000, .i32⟩
  | .hbm, ⟨35, _⟩ => ⟨S6600000, .i32⟩
  | .hbm, ⟨36, _⟩ => ⟨S6600000, .i32⟩
  | .hbm, ⟨37, _⟩ => ⟨S6600000x1, .i32⟩
  | .hbm, ⟨38, _⟩ => ⟨S6600000, .f32⟩
  | .hbm, ⟨39, _⟩ => ⟨S_, .i32⟩
  | .hbm, ⟨40, _⟩ => ⟨S6600000, .i32⟩
  | .hbm, ⟨41, _⟩ => ⟨S6600000, .i1⟩
  | .hbm, ⟨42, _⟩ => ⟨S_, .i32⟩
  | .hbm, ⟨43, _⟩ => ⟨S6600000, .i32⟩
  | .hbm, ⟨44, _⟩ => ⟨S6600000, .i32⟩
  | .hbm, ⟨45, _⟩ => ⟨S6600000, .i32⟩
  | .hbm, ⟨46, _⟩ => ⟨S6600000x1, .i32⟩
  | .hbm, ⟨47, _⟩ => ⟨S6600000, .f32⟩
  | .hbm, ⟨48, _⟩ => ⟨S6600000, .f32⟩
  | .hbm, ⟨49, _⟩ => ⟨S200000x16, .f32⟩
  | .hbm, ⟨50, _⟩ => ⟨S_, .i32⟩
  | .hbm, ⟨51, _⟩ => ⟨S6600000, .i32⟩
  | .hbm, ⟨52, _⟩ => ⟨S6600000, .i1⟩
  | .hbm, ⟨53, _⟩ => ⟨S_, .i32⟩
  | .hbm, ⟨54, _⟩ => ⟨S6600000, .i32⟩
  | .hbm, ⟨55, _⟩ => ⟨S6600000, .i32⟩
  | .hbm, ⟨56, _⟩ => ⟨S6600000, .i32⟩
  | .hbm, ⟨57, _⟩ => ⟨S6600000x1, .i32⟩
  | .hbm, ⟨58, _⟩ => ⟨S6600000x16, .f32⟩
  | .hbm, ⟨59, _⟩ => ⟨S6600000x1, .f32⟩
  | .hbm, ⟨60, _⟩ => ⟨S6600000x16, .f32⟩
  | .hbm, ⟨61, _⟩ => ⟨S6600000x16, .f32⟩
  | .hbm, ⟨62, _⟩ => ⟨S_, .f32⟩
  | .hbm, ⟨63, _⟩ => ⟨S200000x16, .f32⟩
  | .hbm, ⟨64, _⟩ => ⟨S6600000x1, .i32⟩
  | .hbm, ⟨65, _⟩ => ⟨S200000x16, .f32⟩
  | .hbm, ⟨66, _⟩ => ⟨S1x16, .f32⟩
  | .hbm, ⟨67, _⟩ => ⟨S200000x2, .f32⟩
  | .hbm, ⟨68, _⟩ => ⟨S_, .i32⟩
  | .hbm, ⟨69, _⟩ => ⟨S6600000, .i32⟩
  | .hbm, ⟨70, _⟩ => ⟨S6600000, .i1⟩
  | .hbm, ⟨71, _⟩ => ⟨S_, .i32⟩
  | .hbm, ⟨72, _⟩ => ⟨S6600000, .i32⟩
  | .hbm, ⟨73, _⟩ => ⟨S6600000, .i32⟩
  | .hbm, ⟨74, _⟩ => ⟨S6600000, .i32⟩
  | .hbm, ⟨75, _⟩ => ⟨S6600000x1, .i32⟩
  | .hbm, ⟨76, _⟩ => ⟨S6600000x2, .f32⟩
  | .hbm, ⟨77, _⟩ => ⟨S6600000x1, .f32⟩
  | .hbm, ⟨78, _⟩ => ⟨S6600000x2, .f32⟩
  | .hbm, ⟨79, _⟩ => ⟨S6600000x2, .f32⟩
  | .hbm, ⟨80, _⟩ => ⟨S_, .f32⟩
  | .hbm, ⟨81, _⟩ => ⟨S200000x2, .f32⟩
  | .hbm, ⟨82, _⟩ => ⟨S6600000x1, .i32⟩
  | .hbm, ⟨83, _⟩ => ⟨S200000x2, .f32⟩
  | .hbm, ⟨84, _⟩ => ⟨S1x2, .f32⟩
  | .hbm, ⟨85, _⟩ => ⟨S1x2, .f32⟩
  | .hbm, ⟨86, _⟩ => ⟨S200000x2, .f32⟩
  | .hbm, ⟨87, _⟩ => ⟨S_, .f32⟩
  | .hbm, ⟨88, _⟩ => ⟨S256x2, .f32⟩
  | .hbm, ⟨89, _⟩ => ⟨S200000x1, .i32⟩
  | .hbm, ⟨90, _⟩ => ⟨S256x2, .f32⟩
  | .hbm, ⟨91, _⟩ => ⟨S_, .f32⟩
  | .hbm, ⟨92, _⟩ => ⟨S200000, .f32⟩
  | .hbm, ⟨93, _⟩ => ⟨S_, .f32⟩
  | .hbm, ⟨94, _⟩ => ⟨S256, .f32⟩
  | .hbm, ⟨95, _⟩ => ⟨S200000x1, .i32⟩
  | .hbm, ⟨96, _⟩ => ⟨S256, .f32⟩
  | .hbm, ⟨97, _⟩ => ⟨S_, .f32⟩
  | .hbm, ⟨98, _⟩ => ⟨S256, .f32⟩
  | .hbm, ⟨99, _⟩ => ⟨S256, .f32⟩
  | .hbm, ⟨100, _⟩ => ⟨S256x1, .f32⟩
  | .hbm, ⟨101, _⟩ => ⟨S256x2, .f32⟩
  | .hbm, ⟨102, _⟩ => ⟨S256x2, .f32⟩
  | .local _ .vmem, ⟨0, _⟩ => ⟨S20000x4, .f32⟩
  | .local _ .vmem, ⟨1, _⟩ => ⟨S20000x4, .f32⟩
  | .local _ .vmem, ⟨2, _⟩ => ⟨S4x16, .f32⟩
  | .local _ .vmem, ⟨3, _⟩ => ⟨S20000x16, .f32⟩
  | .local _ .vmem, ⟨4, _⟩ => ⟨S20000x16, .f32⟩
  | .local _ .vmem, ⟨5, _⟩ => ⟨S20000x16, .f32⟩
  | .local _ .vmem, ⟨6, _⟩ => ⟨S20000x16, .f32⟩
  | .local _ .vmem, ⟨7, _⟩ => ⟨S1x16, .f32⟩
  | .local _ .vmem, ⟨8, _⟩ => ⟨S16x2, .f32⟩
  | .local _ .vmem, ⟨9, _⟩ => ⟨S20000x2, .f32⟩
  | .local _ .vmem, ⟨10, _⟩ => ⟨S20000x2, .f32⟩
  | .local _ .vmem, ⟨11, _⟩ => ⟨S20000x2, .f32⟩
  | .local _ .vmem, ⟨12, _⟩ => ⟨S20000x2, .f32⟩
  | .local _ .vmem, ⟨13, _⟩ => ⟨S1x2, .f32⟩
  | .local _ .vmem, ⟨14, _⟩ => ⟨S2x2, .f32⟩
  | .local _ .vmem, ⟨15, _⟩ => ⟨S1x2, .f32⟩
  | .local _ .vmem, ⟨16, _⟩ => ⟨S20000x2, .f32⟩
  | .local _ .vmem, ⟨17, _⟩ => ⟨S20000x2, .f32⟩
  | _, _ => ⟨S200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S20000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S20000x4_S20000x4_0_0 : ∀ a, (![0, 0] : Fin 2 → Nat) a + S20000x4.size a ≤ S20000x4.size a
  h_S20000x4 : 0 < S20000x4.numel
  bitsLt_bf16_f32 : FTy.bits .bf16 < FTy.bits .f32
  inb_S4x16_S4x16_0_0 : ∀ a, (![0, 0] : Fin 2 → Nat) a + S4x16.size a ≤ S4x16.size a
  h_S4x16 : 0 < S4x16.numel
  inb_S20000x16_S20000x16_0_0 : ∀ a, (![0, 0] : Fin 2 → Nat) a + S20000x16.size a ≤ S20000x16.size a
  h_S20000x16 : 0 < S20000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  shapeCasts_S20000x16_S20000x16 : S20000x16.ShapeCasts S20000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S16x2_S16x2_0_0 : ∀ a, (![0, 0] : Fin 2 → Nat) a + S16x2.size a ≤ S16x2.size a
  h_S16x2 : 0 < S16x2.numel
  inb_S20000x2_S20000x2_0_0 : ∀ a, (![0, 0] : Fin 2 → Nat) a + S20000x2.size a ≤ S20000x2.size a
  h_S20000x2 : 0 < S20000x2.numel
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  shapeCasts_S2_S1x2 : S2.ShapeCasts S1x2
  shapeCasts_S20000x2_S20000x2 : S20000x2.ShapeCasts S20000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S20000x2 : S1x2.Broadcasts S20000x2
  inb_S2x2_S2x2_0_0 : ∀ a, (![0, 0] : Fin 2 → Nat) a + S2x2.size a ≤ S2x2.size a
  h_S2x2 : 0 < S2x2.numel
  bcast_S_S256x2 : S_.BroadcastsInDim S256x2 (![] : Fin 0 → Fin S256x2.rank)
  bcast_S200000_S200000x1_0 : S200000.BroadcastsInDim S200000x1 (![0] : Fin 1 → Fin S200000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S20000x4_S4x16_S20000x16_1_0_0_1_n_n_wf : DotDims.WF S20000x4 S4x16 S20000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S20000x16_S16x2_S20000x2_1_0_0_1_n_n_wf : DotDims.WF S20000x16 S16x2 S20000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  dot_S20000x2_S2x2_S20000x2_1_0_0_1_n_n_wf : DotDims.WF S20000x2 S2x2 S20000x2 [1] [0] [0] [1] [] []
  scatter_S256x2_S200000x1_S200000x2_1_0_0_1_wf : ScatterDims.WF S256x2 S200000x1 S200000x2 [1] [0] [0] 1
  scatter_S256_S200000x1_S200000_n_0_0_1_wf : ScatterDims.WF S256 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x4.size a ≤ S200000x4.size a
  hwx0_0 : ∀ i : grid0.Coords, EltTy.bits .f32 = 32 ∨ (Rect.block (s := S200000x4) S20000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x16.size a ≤ S4x16.size a
  hwx0_1 : ∀ i : grid0.Coords, EltTy.bits .f32 = 32 ∨ (Rect.block (s := S4x16) S4x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x16.size a ≤ S200000x16.size a
  hwx0_2 : ∀ i : grid0.Coords, EltTy.bits .f32 = 32 ∨ (Rect.block (s := S200000x16) S20000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S200000x16.size a
  hwx1_0 : ∀ i : grid1.Coords, EltTy.bits .f32 = 32 ∨ (Rect.block (s := S200000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x2.size a ≤ S200000x2.size a
  hwx1_3 : ∀ i : grid1.Coords, EltTy.bits .f32 = 32 ∨ (Rect.block (s := S200000x2) S20000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x2.size a ≤ S200000x2.size a
  hwx2_0 : ∀ i : grid2.Coords, EltTy.bits .f32 = 32 ∨ (Rect.block (s := S200000x2) S20000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x2.size a ≤ S2x2.size a
  hwx2_2 : ∀ i : grid2.Coords, EltTy.bits .f32 = 32 ∨ (Rect.block (s := S2x2) S2x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S20000x2.size a ≤ S200000x2.size a
  hwx2_4 : ∀ i : grid2.Coords, EltTy.bits .f32 = 32 ∨ (Rect.block (s := S200000x2) S20000x2.size (cc2_transform_4 i) (hinb2_4 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S20000x4_S4x16_S20000x16_1_0_0_1_n_n : DotDims S20000x4 S4x16 S20000x16 where
  lhsContracting := [1]
  rhsContracting := [0]
  lhsNonContracting := [0]
  rhsNonContracting := [1]
  lhsBatch := []
  rhsBatch := []
  wf := dot_S20000x4_S4x16_S20000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S20000x16_S16x2_S20000x2_1_0_0_1_n_n : DotDims S20000x16 S16x2 S20000x2 where
  lhsContracting := [1]
  rhsContracting := [0]
  lhsNonContracting := [0]
  rhsNonContracting := [1]
  lhsBatch := []
  rhsBatch := []
  wf := dot_S20000x16_S16x2_S20000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf
def dot_S20000x2_S2x2_S20000x2_1_0_0_1_n_n : DotDims S20000x2 S2x2 S20000x2 where
  lhsContracting := [1]
  rhsContracting := [0]
  lhsNonContracting := [0]
  rhsNonContracting := [1]
  lhsBatch := []
  rhsBatch := []
  wf := dot_S20000x2_S2x2_S20000x2_1_0_0_1_n_n_wf
def scatter_S256x2_S200000x1_S200000x2_1_0_0_1 : ScatterDims S256x2 S200000x1 S200000x2 where
  updateWindowDims := [1]
  insertedWindowDims := [0]
  scatterDimsToOperandDims := [0]
  indexVectorDim := 1
  wf := scatter_S256x2_S200000x1_S200000x2_1_0_0_1_wf
def scatter_S256_S200000x1_S200000_n_0_0_1 : ScatterDims S256 S200000x1 S200000 where
  updateWindowDims := []
  insertedWindowDims := [0]
  scatterDimsToOperandDims := [0]
  indexVectorDim := 1
  wf := scatter_S256_S200000x1_S200000_n_0_0_1_wf

abbrev win0_0 : Pipeline.Window sig grid0 :=
  Pipeline.Window.ofSpec (Memref.whole main_arg0) S20000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S20000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S20000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S20000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x4 : Shape := ⟨2, ![200000, 4]⟩
abbrev S2x6400000 : Shape := ⟨2, ![2, 6400000]⟩
abbrev S200000 : Shape := ⟨1, ![200000]⟩
abbrev S4x16 : Shape := ⟨2, ![4, 16]⟩
abbrev S16 : Shape := ⟨1, ![16]⟩
abbrev S16x2 : Shape := ⟨2, ![16, 2]⟩
abbrev S2 : Shape := ⟨1, ![2]⟩
abbrev S2x2 : Shape := ⟨2, ![2, 2]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S200000x2 : Shape := ⟨2, ![200000, 2]⟩
abbrev S6600000x2 : Shape := ⟨2, ![6600000, 2]⟩
abbrev S1x2 : Shape := ⟨2, ![1, 2]⟩
abbrev S256x2 : Shape := ⟨2, ![256, 2]⟩
abbrev S200000x1 : Shape := ⟨2, ![200000, 1]⟩
abbrev S256 : Shape := ⟨1, ![256]⟩
abbrev S256x1 : Shape := ⟨2, ![256, 1]⟩

abbrev nBuf : Space → Nat
  | .hbm => 112
  | .vmem => 0
  | .smem => 0
  | _ => 0

abbrev bufTy : (tb : Table) → Fin (tcTables nBuf tb) → BufTy
  | .hbm, ⟨0, _⟩ => ⟨S200000x4, .f32⟩
  | .hbm, ⟨1, _⟩ => ⟨S2x6400000, .i32⟩
  | .hbm, ⟨2, _⟩ => ⟨S200000, .i32⟩
  | .hbm, ⟨3, _⟩ => ⟨S4x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S2x2, .f32⟩
  | .hbm, ⟨8, _⟩ => ⟨S2, .f32⟩
  | .hbm, ⟨9, _⟩ => ⟨S200000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S1x6400000, .i32⟩
  | .hbm, ⟨14, _⟩ => ⟨S6400000, .i32⟩
  | .hbm, ⟨15, _⟩ => ⟨S6600000, .i32⟩
  | .hbm, ⟨16, _⟩ => ⟨S_, .f32⟩
  | .hbm, ⟨17, _⟩ => ⟨S6600000, .f32⟩
  | .hbm, ⟨18, _⟩ => ⟨S_, .f32⟩
  | .hbm, ⟨19, _⟩ => ⟨S200000, .f32⟩
  | .hbm, ⟨20, _⟩ => ⟨S6600000x1, .i32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .i1⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S6600000, .i32⟩
  | .hbm, ⟨32, _⟩ => ⟨S6600000, .i1⟩
  | .hbm, ⟨33, _⟩ => ⟨S_, .i32⟩
  | .hbm, ⟨34, _⟩ => ⟨S6600000, .i32⟩
  | .hbm, ⟨35, _⟩ => ⟨S6600000, .i32⟩
  | .hbm, ⟨36, _⟩ => ⟨S6600000, .i32⟩
  | .hbm, ⟨37, _⟩ => ⟨S6600000x1, .i32⟩
  | .hbm, ⟨38, _⟩ => ⟨S6600000, .f32⟩
  | .hbm, ⟨39, _⟩ => ⟨S_, .i32⟩
  | .hbm, ⟨40, _⟩ => ⟨S6600000, .i32⟩
  | .hbm, ⟨41, _⟩ => ⟨S6600000, .i1⟩
  | .hbm, ⟨42, _⟩ => ⟨S_, .i32⟩
  | .hbm, ⟨43, _⟩ => ⟨S6600000, .i32⟩
  | .hbm, ⟨44, _⟩ => ⟨S6600000, .i32⟩
  | .hbm, ⟨45, _⟩ => ⟨S6600000, .i32⟩
  | .hbm, ⟨46, _⟩ => ⟨S6600000x1, .i32⟩
  | .hbm, ⟨47, _⟩ => ⟨S6600000, .f32⟩
  | .hbm, ⟨48, _⟩ => ⟨S6600000, .f32⟩
  | .hbm, ⟨49, _⟩ => ⟨S200000x16, .f32⟩
  | .hbm, ⟨50, _⟩ => ⟨S_, .i32⟩
  | .hbm, ⟨51, _⟩ => ⟨S6600000, .i32⟩
  | .hbm, ⟨52, _⟩ => ⟨S6600000, .i1⟩
  | .hbm, ⟨53, _⟩ => ⟨S_, .i32⟩
  | .hbm, ⟨54, _⟩ => ⟨S6600000, .i32⟩
  | .hbm, ⟨55, _⟩ => ⟨S6600000, .i32⟩
  | .hbm, ⟨56, _⟩ => ⟨S6600000, .i32⟩
  | .hbm, ⟨57, _⟩ => ⟨S6600000x1, .i32⟩
  | .hbm, ⟨58, _⟩ => ⟨S6600000x16, .f32⟩
  | .hbm, ⟨59, _⟩ => ⟨S6600000x1, .f32⟩
  | .hbm, ⟨60, _⟩ => ⟨S6600000x16, .f32⟩
  | .hbm, ⟨61, _⟩ => ⟨S6600000x16, .f32⟩
  | .hbm, ⟨62, _⟩ => ⟨S_, .f32⟩
  | .hbm, ⟨63, _⟩ => ⟨S200000x16, .f32⟩
  | .hbm, ⟨64, _⟩ => ⟨S6600000x1, .i32⟩
  | .hbm, ⟨65, _⟩ => ⟨S200000x16, .f32⟩
  | .hbm, ⟨66, _⟩ => ⟨S1x16, .f32⟩
  | .hbm, ⟨67, _⟩ => ⟨S200000x16, .f32⟩
  | .hbm, ⟨68, _⟩ => ⟨S200000x16, .f32⟩
  | .hbm, ⟨69, _⟩ => ⟨S_, .f32⟩
  | .hbm, ⟨70, _⟩ => ⟨S200000x16, .f32⟩
  | .hbm, ⟨71, _⟩ => ⟨S200000x16, .f32⟩
  | .hbm, ⟨72, _⟩ => ⟨S200000x2, .f32⟩
  | .hbm, ⟨73, _⟩ => ⟨S_, .i32⟩
  | .hbm, ⟨74, _⟩ => ⟨S6600000, .i32⟩
  | .hbm, ⟨75, _⟩ => ⟨S6600000, .i1⟩
  | .hbm, ⟨76, _⟩ => ⟨S_, .i32⟩
  | .hbm, ⟨77, _⟩ => ⟨S6600000, .i32⟩
  | .hbm, ⟨78, _⟩ => ⟨S6600000, .i32⟩
  | .hbm, ⟨79, _⟩ => ⟨S6600000, .i32⟩
  | .hbm, ⟨80, _⟩ => ⟨S6600000x1, .i32⟩
  | .hbm, ⟨81, _⟩ => ⟨S6600000x2, .f32⟩
  | .hbm, ⟨82, _⟩ => ⟨S6600000x1, .f32⟩
  | .hbm, ⟨83, _⟩ => ⟨S6600000x2, .f32⟩
  | .hbm, ⟨84, _⟩ => ⟨S6600000x2, .f32⟩
  | .hbm, ⟨85, _⟩ => ⟨S_, .f32⟩
  | .hbm, ⟨86, _⟩ => ⟨S200000x2, .f32⟩
  | .hbm, ⟨87, _⟩ => ⟨S6600000x1, .i32⟩
  | .hbm, ⟨88, _⟩ => ⟨S200000x2, .f32⟩
  | .hbm, ⟨89, _⟩ => ⟨S1x2, .f32⟩
  | .hbm, ⟨90, _⟩ => ⟨S200000x2, .f32⟩
  | .hbm, ⟨91, _⟩ => ⟨S200000x2, .f32⟩
  | .hbm, ⟨92, _⟩ => ⟨S200000x2, .f32⟩
  | .hbm, ⟨93, _⟩ => ⟨S1x2, .f32⟩
  | .hbm, ⟨94, _⟩ => ⟨S200000x2, .f32⟩
  | .hbm, ⟨95, _⟩ => ⟨S200000x2, .f32⟩
  | .hbm, ⟨96, _⟩ => ⟨S_, .f32⟩
  | .hbm, ⟨97, _⟩ => ⟨S256x2, .f32⟩
  | .hbm, ⟨98, _⟩ => ⟨S200000x1, .i32⟩
  | .hbm, ⟨99, _⟩ => ⟨S256x2, .f32⟩
  | .hbm, ⟨100, _⟩ => ⟨S_, .f32⟩
  | .hbm, ⟨101, _⟩ => ⟨S200000, .f32⟩
  | .hbm, ⟨102, _⟩ => ⟨S_, .f32⟩
  | .hbm, ⟨103, _⟩ => ⟨S256, .f32⟩
  | .hbm, ⟨104, _⟩ => ⟨S200000x1, .i32⟩
  | .hbm, ⟨105, _⟩ => ⟨S256, .f32⟩
  | .hbm, ⟨106, _⟩ => ⟨S_, .f32⟩
  | .hbm, ⟨107, _⟩ => ⟨S256, .f32⟩
  | .hbm, ⟨108, _⟩ => ⟨S256, .f32⟩
  | .hbm, ⟨109, _⟩ => ⟨S256x1, .f32⟩
  | .hbm, ⟨110, _⟩ => ⟨S256x2, .f32⟩
  | .hbm, ⟨111, _⟩ => ⟨S256x2, .f32⟩
  | _, _ => ⟨S200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  bcast_S_S256x2 : S_.BroadcastsInDim S256x2 (![] : Fin 0 → Fin S256x2.rank)
  bcast_S200000_S200000x1_0 : S200000.BroadcastsInDim S200000x1 (![0] : Fin 1 → Fin S200000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x4_S4x16_S200000x16_1_0_0_1_n_n_wf : DotDims.WF S200000x4 S4x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x2_S200000x2_1_0_0_1_n_n_wf : DotDims.WF S200000x16 S16x2 S200000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  dot_S200000x2_S2x2_S200000x2_1_0_0_1_n_n_wf : DotDims.WF S200000x2 S2x2 S200000x2 [1] [0] [0] [1] [] []
  scatter_S256x2_S200000x1_S200000x2_1_0_0_1_wf : ScatterDims.WF S256x2 S200000x1 S200000x2 [1] [0] [0] 1
  scatter_S256_S200000x1_S200000_n_0_0_1_wf : ScatterDims.WF S256 S200000x1 S200000 [] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x4_S4x16_S200000x16_1_0_0_1_n_n : DotDims S200000x4 S4x16 S200000x16 where
  lhsContracting := [1]
  rhsContracting := [0]
  lhsNonContracting := [0]
  rhsNonContracting := [1]
  lhsBatch := []
  rhsBatch := []
  wf := dot_S200000x4_S4x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf
def dot_S200000x2_S2x2_S200000x2_1_0_0_1_n_n : DotDims S200000x2 S2x2 S200000x2 where
  lhsContracting := [1]
  rhsContracting := [0]
  lhsNonContracting := [0]
  rhsNonContracting := [1]
  lhsBatch := []
  rhsBatch := []
  wf := dot_S200000x2_S2x2_S200000x2_1_0_0_1_n_n_wf
def scatter_S256x2_S200000x1_S200000x2_1_0_0_1 : ScatterDims S256x2 S200000x1 S200000x2 where
  updateWindowDims := [1]
  insertedWindowDims := [0]
  scatterDimsToOperandDims := [0]
  indexVectorDim := 1
  wf := scatter_S256x2_S200000x1_S200000x2_1_0_0_1_wf
def scatter_S256_S200000x1_S200000_n_0_0_1 : ScatterDims S256 S200000x1 S200000 where
  updateWindowDims := []
  insertedWindowDims := [0]
  scatterDimsToOperandDims := [0]
  indexVectorDim := 1
  wf := scatter_S256_S200000x1_S200000_n_0_0_1_wf

class Facts : Prop extends Facts₀ where

variable [Facts]
-- ==== Proof.KernelRun.lean ====
/-
  The idealized kernel's whole run, with the result buffer named.

  @main is nine segments: three stretches of host operations, the first node-level product (x · W1, a Pallas region over
  ten row blocks), a host stretch (gather along the edges, scale by the edge weight, scatter-add into the target nodes),
  the second region (relu(· + b1) · W2), a host stretch of the same shape, the third region ((· + b2) · Wl + bl), and the
  pooling tail. The launch theorem for such a chain gives, in every final state, each unscoped buffer at the last
  boundary's contents `W9`. The frame keeps only the argument buffers from that; here the result buffer is kept as
  well: after every weakly fair execution it holds `W9 m ρ c main_v73`, the fold of all nine segments from the launch
  memory, which the later modules read back segment by segment.
-/
import proofs.«175485_j32770600469079_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W9` (the nine segments folded from the launch memory) and the argument arrays end as launched. -/
theorem run_result : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.ResultRun

end
-- ==== Proof.Stage0.lean ====
/-
  The first node-level stage: t1 = x · W1, with x : [200000, 4] and W1 : [4, 16].

  The kernel computes it in ten grid points. Point t loads rows 20000·t … 20000·t + 19999 of x (a [20000, 4] block) and
  the whole of W1, multiplies them on the matrix unit into a zero accumulator, and writes the [20000, 16] product back
  as rows 20000·t … of the result. At the ideal instance the bf16 casts are the identity and the product into zero is the
  plain sum over the contracted axis, so entry (p, q) of point t's block is  ∑ₖ x[20000·t + p, k] · W1[k, q],  which is
  entry (20000·t + p, q) of the whole product. The ten blocks tile the 200000 rows, so the result array ends holding
  the whole product `xW`.
-/
import proofs.«175485_j32770600469079_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stage0

open Cert.KernelIdeal Cert.KernelIdeal.Gen

/-- The zero offsets of a whole-block access. -/
theorem hz : (![0, 0] : Fin 2 → Nat) = fun _ => 0 := funext fun a => by fin_cases a <;> rfl

/-! ## The specification: the whole product, entry by entry -/

/-- Entry (i₀, k) of the left factor. -/
abbrev lrow (i : S200000x16.Idx) (k : Fin 4) : S200000x4.Idx := fun a => match a with
  | ⟨0, _⟩ => ⟨(i 0).val, (i 0).isLt⟩
  | ⟨1, _⟩ => ⟨k.val, k.isLt⟩
/-- Entry (k, i₁) of the right factor. -/
abbrev rcol (i : S200000x16.Idx) (k : Fin 4) : S4x16.Idx := fun a => match a with
  | ⟨0, _⟩ => ⟨k.val, k.isLt⟩
  | ⟨1, _⟩ => ⟨(i 1).val, (i 1).isLt⟩

/-- `xW x w` is the matrix product x · w: entry i is the sum over k of x[i₀, k] · w[k, i₁]. -/
def xW (x : (⟨S200000x4, .f32⟩ : BufTy).Contents (Elt Ideal)) (w : (⟨S4x16, .f32⟩ : BufTy).Contents (Elt Ideal)) :
    (⟨S200000x16, .f32⟩ : BufTy).Contents (Elt Ideal) :=
  fun i => ∑ k : Fin 4, x (lrow i k) * w (rcol i k)

/-! ## The body's product at an entry of the block -/

abbrev blrow (j : S20000x16.Idx) (k : Fin 4) : S20000x4.Idx := fun a => match a with
  | ⟨0, _⟩ => ⟨(j 0).val, (j 0).isLt⟩
  | ⟨1, _⟩ => ⟨k.val, k.isLt⟩
abbrev brcol (j : S20000x16.Idx) (k : Fin 4) : S4x16.Idx := fun a => match a with
  | ⟨0, _⟩ => ⟨k.val, k.isLt⟩
  | ⟨1, _⟩ => ⟨(j 1).val, (j 1).isLt⟩

theorem dK_lhs0 (j : S20000x16.Idx) (q : (dot_S20000x4_S4x16_S20000x16_1_0_0_1_n_n).contr.Idx) :
    ((dot_S20000x4_S4x16_S20000x16_1_0_0_1_n_n).lhsIdx j q 0).val = (j 0).val := by
  unfold DotDims.lhsIdx
  rw [dif_neg (show ¬(0 : Fin S20000x4.rank) ∈ (dot_S20000x4_S4x16_S20000x16_1_0_0_1_n_n).lhsBatch by decide), dif_pos (show (0 : Fin S20000x4.rank) ∈ (dot_S20000x4_S4x16_S20000x16_1_0_0_1_n_n).lhsNonContracting by decide)]
  rfl
theorem dK_lhs1 (j : S20000x16.Idx) (q : (dot_S20000x4_S4x16_S20000x16_1_0_0_1_n_n).contr.Idx) :
    ((dot_S20000x4_S4x16_S20000x16_1_0_0_1_n_n).lhsIdx j q 1).val = (q ⟨0, by decide⟩).val :=
  (dot_S20000x4_S4x16_S20000x16_1_0_0_1_n_n).lhsIdx_val_of_single rfl j q
theorem dK_rhs0 (j : S20000x16.Idx) (q : (dot_S20000x4_S4x16_S20000x16_1_0_0_1_n_n).contr.Idx) :
    ((dot_S20000x4_S4x16_S20000x16_1_0_0_1_n_n).rhsIdx j q 0).val = (q ⟨0, by decide⟩).val :=
  (dot_S20000x4_S4x16_S20000x16_1_0_0_1_n_n).rhsIdx_val_of_single rfl j q
theorem dK_rhs1 (j : S20000x16.Idx) (q : (dot_S20000x4_S4x16_S20000x16_1_0_0_1_n_n).contr.Idx) :
    ((dot_S20000x4_S4x16_S20000x16_1_0_0_1_n_n).rhsIdx j q 1).val = (j 1).val := by
  unfold DotDims.rhsIdx
  rw [dif_neg (show ¬(1 : Fin S4x16.rank) ∈ (dot_S20000x4_S4x16_S20000x16_1_0_0_1_n_n).rhsBatch by decide), dif_pos (show (1 : Fin S4x16.rank) ∈ (dot_S20000x4_S4x16_S20000x16_1_0_0_1_n_n).rhsNonContracting by decide)]
  rfl

/-- Entry j of the body's stored value: the sum over k of the row block's [j₀, k] times the weight's [k, j₁]. -/
theorem pay_apply (x0 : Vec Ideal S20000x4 .f32) (x1 : Vec Ideal S4x16 .f32) (j : S20000x16.Idx) :
    k0_pay1 (F := Ideal) x0 x1 j = ∑ k : Fin 4, x0 (blrow j k) * x1 (brcol j k) := by
  unfold k0_pay1
  simp only [matmul]
  rw [Ideal.matmul_constant_zero_apply, ← Equiv.sum_comp (ValueIdx.contrEquiv1 (dot_S20000x4_S4x16_S20000x16_1_0_0_1_n_n) 4 rfl rfl).symm]
  refine Finset.sum_congr rfl fun k _ => ?_
  have hk := ValueIdx.contrEquiv1_symm_val (dot_S20000x4_S4x16_S20000x16_1_0_0_1_n_n) 4 rfl rfl k
  have el : (dot_S20000x4_S4x16_S20000x16_1_0_0_1_n_n).lhsIdx j ((ValueIdx.contrEquiv1 (dot_S20000x4_S4x16_S20000x16_1_0_0_1_n_n) 4 rfl rfl).symm k) = blrow j k := funext fun a => Fin.ext (by
    match a with
    | ⟨0, _⟩ => exact dK_lhs0 _ _
    | ⟨1, _⟩ => exact (dK_lhs1 _ _).trans hk)
  have er : (dot_S20000x4_S4x16_S20000x16_1_0_0_1_n_n).rhsIdx j ((ValueIdx.contrEquiv1 (dot_S20000x4_S4x16_S20000x16_1_0_0_1_n_n) 4 rfl rfl).symm k) = brcol j k := funext fun a => Fin.ext (by
    match a with
    | ⟨0, _⟩ => exact (dK_rhs0 _ _).trans hk
    | ⟨1, _⟩ => exact dK_rhs1 _ _)
  rw [el, er]
  rfl

/-! ## The windows' blocks as entries of their arrays -/

variable (V : (c : Dev nD) → (b : Ref sig .tc) → Buf (Elt Ideal) ((c : Thread nD τ).loc b))

/-- The index maps over the grid: the row-blocked windows move one block per point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 20000·t … of x. -/
theorem blk_x (c : Dev nD) (t : Fin cfg0.N) (y : S20000x4.Idx) (i : S200000x4.Idx)
    (h0 : (i 0).val = 20000 * t.val + (y 0).val) (h1 : (i 1).val = (y 1).val) :
    (iblk0 V c 0 t : Vec Ideal S20000x4 .f32) y = (V c main_arg0 : S200000x4.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 20000 + 1 * (y 0).val = (i 0).val; rw [e0, h0]; omega
  | ⟨1, _⟩ => show win0_0.index t 1 * 4 + 1 * (y 1).val = (i 1).val; rw [e1, h1]; omega

/-- The right window's block at every point is the whole of W1. -/
theorem blk_w (c : Dev nD) (t : Fin cfg0.N) (y : S4x16.Idx) :
    (iblk0 V c 1 t : Vec Ideal S4x16 .f32) y = (V c main_arg3 : S4x16.Idx → Elt Ideal .f32) y := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 4 + 1 * (y 0).val = (y 0).val; rw [e0]; omega
  | ⟨1, _⟩ => show win0_1.index t 1 * 16 + 1 * (y 1).val = (y 1).val; rw [e1]; omega

/-! ## What a point writes back, the cover, the whole array -/

/-- Point t writes back block t of the whole product of the arrays the region found. -/
theorem flushed_eq (c : Dev nD) (t : Fin cfg0.N) :
    (dat0 V c).flushed 2 t = ((cfg0.win 2).blk t).view.read (Elt Ideal) (xW (V c main_arg0) (V c main_arg3)) := by
  show (cfg0.win 2).cut (grid0.coords t) ((dat0 V c).after 2 t) = _
  rw [after0_2]
  unfold out0_2
  rw [View.canon_unit_zero hz]
  simp only [View.ld_unit_zero (S := S20000x4) hz, View.ld_unit_zero (S := S4x16) hz]
  obtain ⟨-, -, -, -, e0, e1⟩ := idx_facts t
  funext j
  show k0_pay1 (F := Ideal) (iblk0 V c 0 t) (iblk0 V c 1 t) j = xW (V c main_arg0) (V c main_arg3) (((cfg0.win 2).blk t).view.emb j)
  rw [pay_apply]
  unfold xW
  refine Finset.sum_congr rfl fun k _ => ?_
  have hr0 : ((((cfg0.win 2).blk t).view.emb j) 0).val = 20000 * t.val + (j 0).val := by
    show win0_2.index t 0 * 20000 + 1 * (j 0).val = _; rw [e0]; omega
  have hr1 : ((((cfg0.win 2).blk t).view.emb j) 1).val = (j 1).val := by
    show win0_2.index t 1 * 16 + 1 * (j 1).val = _; rw [e1]; omega
  have hc : brcol j k = rcol (((cfg0.win 2).blk t).view.emb j) k := funext fun a => Fin.ext (by
    match a with
    | ⟨0, _⟩ => rfl
    | ⟨1, _⟩ => exact hr1.symm)
  rw [blk_x V c t (blrow j k) (lrow (((cfg0.win 2).blk t).view.emb j) k) hr0 rfl, blk_w V c t (brcol j k), hc]

/-- An entry is in point t's block iff its row is among that block's 20000 rows. -/
theorem mem_blk (t : Fin cfg0.N) (i : S200000x16.Idx) :
    i ∈ ((cfg0.win 2).blk t).view.set ↔ ∀ a : Fin 2, win0_2.index t a * S20000x16.size a ≤ (i a).val ∧ (i a).val < win0_2.index t a * S20000x16.size a + S20000x16.size a := by
  show i ∈ ((View.whole main_v30).slice (win0_2.rect t)).set ↔ _
  rw [View.set_slice_whole, Rect.mem_set_unit]
  exact Iff.rfl

/-- Every entry lies in the block of the point its row divided by 20000 names. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 10 := N_0
  refine ⟨⟨(i 0).val / 20000, by rw [hN]; omega⟩, flush0_2 _, ?_⟩
  obtain ⟨-, -, -, -, e0, e1⟩ := idx_facts ⟨(i 0).val / 20000, by rw [hN]; omega⟩
  rw [mem_blk]
  intro a
  match a with
  | ⟨0, _⟩ => show win0_2.index _ 0 * 20000 ≤ (i 0).val ∧ (i 0).val < win0_2.index _ 0 * 20000 + 20000; rw [e0]; show (i 0).val / 20000 * 20000 ≤ (i 0).val ∧ (i 0).val < (i 0).val / 20000 * 20000 + 20000; omega
  | ⟨1, _⟩ => show win0_2.index _ 1 * 16 ≤ (i 1).val ∧ (i 1).val < win0_2.index _ 1 * 16 + 16; rw [e1]; omega

/-- The result array after the region: the whole product of the arrays the region found. -/
theorem final (c : Dev nD) : (dat0 V c).arrAt 2 cfg0.N = xW (V c main_arg0) (V c main_arg3) :=
  (dat0 V c).arrAt_eq_of_cover 2 (xW (V c main_arg0) (V c main_arg3)) (fun t _ => flushed_eq V c t) cover

end Cert.KernelIdeal.Stage0

end
-- ==== Proof.Stage1.lean ====
/-
  The second node-level stage: t2 = relu(agg + b1) · W2, with agg : [200000, 16], b1 as a [1, 16] row, W2 : [16, 2].

  Point t loads rows 20000·t … of agg, the bias row and the whole of W2; adds the row to every row of the block, takes
  the maximum with zero, and multiplies by W2 into a zero accumulator. At the ideal instance entry (p, q) of the block
  is  ∑ₖ max(agg[20000·t + p, k] + b1[0, k], 0) · W2[k, q],  which is entry (20000·t + p, q) of the whole-array function
  `reluW`. The ten blocks tile the 200000 rows, so the result array ends holding `reluW` of the arrays found.
-/
import proofs.«175485_j32770600469079_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stage1

open Cert.KernelIdeal Cert.KernelIdeal.Gen

/-- The zero offsets of a whole-block access. -/
theorem hz : (![0, 0] : Fin 2 → Nat) = fun _ => 0 := funext fun a => by fin_cases a <;> rfl

/-! ## The specification, entry by entry -/

/-- Entry (i₀, k) of the aggregated features. -/
abbrev lrow (i : S200000x2.Idx) (k : Fin 16) : S200000x16.Idx := fun a => match a with
  | ⟨0, _⟩ => ⟨(i 0).val, (i 0).isLt⟩
  | ⟨1, _⟩ => ⟨k.val, k.isLt⟩
/-- Entry (k, i₁) of the weight. -/
abbrev rcol (i : S200000x2.Idx) (k : Fin 16) : S16x2.Idx := fun a => match a with
  | ⟨0, _⟩ => ⟨k.val, k.isLt⟩
  | ⟨1, _⟩ => ⟨(i 1).val, (i 1).isLt⟩
/-- Entry (0, k) of the bias row. -/
abbrev brow (k : Fin 16) : S1x16.Idx := fun a => match a with
  | ⟨0, _⟩ => ⟨0, Nat.one_pos⟩
  | ⟨1, _⟩ => ⟨k.val, k.isLt⟩

/-- `reluW a b w`: entry i is the sum over k of max(a[i₀, k] + b[0, k], 0) · w[k, i₁]. -/
def reluW (a : (⟨S200000x16, .f32⟩ : BufTy).Contents (Elt Ideal)) (b : (⟨S1x16, .f32⟩ : BufTy).Contents (Elt Ideal))
    (w : (⟨S16x2, .f32⟩ : BufTy).Contents (Elt Ideal)) : (⟨S200000x2, .f32⟩ : BufTy).Contents (Elt Ideal) :=
  fun i => ∑ k : Fin 16, max (a (lrow i k) + b (brow k)) (Ideal.ofBits .f32 0x00000000#32) * w (rcol i k)

/-! ## The body's stored value at an entry of the block -/

abbrev blrow (j : S20000x2.Idx) (k : Fin 16) : S20000x16.Idx := fun a => match a with
  | ⟨0, _⟩ => ⟨(j 0).val, (j 0).isLt⟩
  | ⟨1, _⟩ => ⟨k.val, k.isLt⟩
abbrev brcol (j : S20000x2.Idx) (k : Fin 16) : S16x2.Idx := fun a => match a with
  | ⟨0, _⟩ => ⟨k.val, k.isLt⟩
  | ⟨1, _⟩ => ⟨(j 1).val, (j 1).isLt⟩

theorem dK_lhs0 (j : S20000x2.Idx) (q : (dot_S20000x16_S16x2_S20000x2_1_0_0_1_n_n).contr.Idx) :
    ((dot_S20000x16_S16x2_S20000x2_1_0_0_1_n_n).lhsIdx j q 0).val = (j 0).val := by
  unfold DotDims.lhsIdx
  rw [dif_neg (show ¬(0 : Fin S20000x16.rank) ∈ (dot_S20000x16_S16x2_S20000x2_1_0_0_1_n_n).lhsBatch by decide), dif_pos (show (0 : Fin S20000x16.rank) ∈ (dot_S20000x16_S16x2_S20000x2_1_0_0_1_n_n).lhsNonContracting by decide)]
  rfl
theorem dK_lhs1 (j : S20000x2.Idx) (q : (dot_S20000x16_S16x2_S20000x2_1_0_0_1_n_n).contr.Idx) :
    ((dot_S20000x16_S16x2_S20000x2_1_0_0_1_n_n).lhsIdx j q 1).val = (q ⟨0, by decide⟩).val :=
  (dot_S20000x16_S16x2_S20000x2_1_0_0_1_n_n).lhsIdx_val_of_single rfl j q
theorem dK_rhs0 (j : S20000x2.Idx) (q : (dot_S20000x16_S16x2_S20000x2_1_0_0_1_n_n).contr.Idx) :
    ((dot_S20000x16_S16x2_S20000x2_1_0_0_1_n_n).rhsIdx j q 0).val = (q ⟨0, by decide⟩).val :=
  (dot_S20000x16_S16x2_S20000x2_1_0_0_1_n_n).rhsIdx_val_of_single rfl j q
theorem dK_rhs1 (j : S20000x2.Idx) (q : (dot_S20000x16_S16x2_S20000x2_1_0_0_1_n_n).contr.Idx) :
    ((dot_S20000x16_S16x2_S20000x2_1_0_0_1_n_n).rhsIdx j q 1).val = (j 1).val := by
  unfold DotDims.rhsIdx
  rw [dif_neg (show ¬(1 : Fin S16x2.rank) ∈ (dot_S20000x16_S16x2_S20000x2_1_0_0_1_n_n).rhsBatch by decide), dif_pos (show (1 : Fin S16x2.rank) ∈ (dot_S20000x16_S16x2_S20000x2_1_0_0_1_n_n).rhsNonContracting by decide)]
  rfl

/-- The bias row broadcast over the block's rows, read at (p, k), is the row's entry (0, k). -/
theorem bias_apply (b : Vec Ideal S1x16 .f32) (j : S20000x2.Idx) (k : Fin 16) :
    broadcastTo S20000x16 b broadcasts_S1x16_S20000x16 (blrow j k) = b (brow k) := by
  refine broadcastTo_apply b broadcasts_S1x16_S20000x16 (blrow j k) (brow k) fun a => ?_
  match a with
  | ⟨0, _⟩ => rfl
  | ⟨1, _⟩ => rfl

/-- Entry j of the body's stored value. -/
theorem pay_apply (x0 : Vec Ideal S20000x16 .f32) (x1 : Vec Ideal S1x16 .f32) (x2 : Vec Ideal S16x2 .f32) (j : S20000x2.Idx) :
    k1_pay1 (F := Ideal) x0 x1 x2 j = ∑ k : Fin 16, max (x0 (blrow j k) + x1 (brow k)) (Ideal.ofBits .f32 0x00000000#32) * x2 (brcol j k) := by
  unfold k1_pay1
  simp only [matmul, shapeCast_self]
  rw [Ideal.matmul_constant_zero_apply, ← Equiv.sum_comp (ValueIdx.contrEquiv1 (dot_S20000x16_S16x2_S20000x2_1_0_0_1_n_n) 16 rfl rfl).symm]
  refine Finset.sum_congr rfl fun k _ => ?_
  have hk := ValueIdx.contrEquiv1_symm_val (dot_S20000x16_S16x2_S20000x2_1_0_0_1_n_n) 16 rfl rfl k
  have el : (dot_S20000x16_S16x2_S20000x2_1_0_0_1_n_n).lhsIdx j ((ValueIdx.contrEquiv1 (dot_S20000x16_S16x2_S20000x2_1_0_0_1_n_n) 16 rfl rfl).symm k) = blrow j k := funext fun a => Fin.ext (by
    match a with
    | ⟨0, _⟩ => exact dK_lhs0 _ _
    | ⟨1, _⟩ => exact (dK_lhs1 _ _).trans hk)
  have er : (dot_S20000x16_S16x2_S20000x2_1_0_0_1_n_n).rhsIdx j ((ValueIdx.contrEquiv1 (dot_S20000x16_S16x2_S20000x2_1_0_0_1_n_n) 16 rfl rfl).symm k) = brcol j k := funext fun a => Fin.ext (by
    match a with
    | ⟨0, _⟩ => exact (dK_rhs0 _ _).trans hk
    | ⟨1, _⟩ => exact dK_rhs1 _ _)
  rw [el, er]
  show max (x0 (blrow j k) + broadcastTo S20000x16 x1 broadcasts_S1x16_S20000x16 (blrow j k)) _ * x2 (brcol j k) = _
  rw [bias_apply]
  rfl

/-! ## The windows' blocks as entries of their arrays -/

variable (V : (c : Dev nD) → (b : Ref sig .tc) → Buf (Elt Ideal) ((c : Thread nD τ).loc b))

/-- The index maps over the grid: the row-blocked windows move one block per point, the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at point t is rows 20000·t … of the aggregated features. -/
theorem blk_a (c : Dev nD) (t : Fin cfg1.N) (y : S20000x16.Idx) (i : S200000x16.Idx)
    (h0 : (i 0).val = 20000 * t.val + (y 0).val) (h1 : (i 1).val = (y 1).val) :
    (iblk1 V c 0 t : Vec Ideal S20000x16 .f32) y = (V c main_v43 : S200000x16.Idx → Elt Ideal .f32) i := by
  obtain ⟨e0, e1, -⟩ := idx_facts t
  unfold iblk1
  rw [View.read_apply]
  show V c main_v43 _ = V c main_v43 _
  congr 1
  funext a
  apply Fin.ext
  match a with
  | ⟨0, _⟩ => show win1_0.index t 0 * 20000 + 1 * (y 0).val = (i 0).val; rw [e0, h0]; omega
  | ⟨1, _⟩ => show win1_0.index t 1 * 16 + 1 * (y 1).val = (i 1).val; rw [e1, h1]; omega

/-- The bias window's block at every point is the whole row. -/
theorem blk_b (c : Dev nD) (t : Fin cfg1.N) (y : S1x16.Idx) :
    (iblk1 V c 1 t : Vec Ideal S1x16 .f32) y = (V c main_v44 : S1x16.Idx → Elt Ideal .f32) y := by
  obtain ⟨-, -, e0, e1, -⟩ := idx_facts t
  unfold iblk1
  rw [View.read_apply]
  show V c main_v44 _ = V c main_v44 _
  congr 1
  funext a
  apply Fin.ext
  match a with
  | ⟨0, _⟩ => show win1_1.index t 0 * 1 + 1 * (y 0).val = (y 0).val; rw [e0]; omega
  | ⟨1, _⟩ => show win1_1.index t 1 * 16 + 1 * (y 1).val = (y 1).val; rw [e1]; omega

/-- The weight window's block at every point is the whole of W2. -/
theorem blk_w (c : Dev nD) (t : Fin cfg1.N) (y : S16x2.Idx) :
    (iblk1 V c 2 t : Vec Ideal S16x2 .f32) y = (V c main_arg5 : S16x2.Idx → Elt Ideal .f32) y := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t 0 * 16 + 1 * (y 0).val = (y 0).val; rw [e0]; omega
  | ⟨1, _⟩ => show win1_2.index t 1 * 2 + 1 * (y 1).val = (y 1).val; rw [e1]; omega

/-! ## What a point writes back, the cover, the whole array -/

/-- Point t writes back block t of `reluW` of the arrays the region found. -/
theorem flushed_eq (c : Dev nD) (t : Fin cfg1.N) :
    (dat1 V c).flushed 3 t = ((cfg1.win 3).blk t).view.read (Elt Ideal) (reluW (V c main_v43) (V c main_v44) (V c main_arg5)) := by
  show (cfg1.win 3).cut (grid1.coords t) ((dat1 V c).after 3 t) = _
  rw [after1_3]
  unfold out1_3
  rw [View.canon_unit_zero hz]
  simp only [View.ld_unit_zero (S := S20000x16) hz, View.ld_unit_zero (S := S1x16) hz, View.ld_unit_zero (S := S16x2) hz]
  obtain ⟨-, -, -, -, -, -, e0, e1⟩ := idx_facts t
  funext j
  show k1_pay1 (F := Ideal) (iblk1 V c 0 t) (iblk1 V c 1 t) (iblk1 V c 2 t) j = reluW (V c main_v43) (V c main_v44) (V c main_arg5) (((cfg1.win 3).blk t).view.emb j)
  rw [pay_apply]
  unfold reluW
  refine Finset.sum_congr rfl fun k _ => ?_
  have hr0 : ((((cfg1.win 3).blk t).view.emb j) 0).val = 20000 * t.val + (j 0).val := by
    show win1_3.index t 0 * 20000 + 1 * (j 0).val = _; rw [e0]; omega
  have hr1 : ((((cfg1.win 3).blk t).view.emb j) 1).val = (j 1).val := by
    show win1_3.index t 1 * 2 + 1 * (j 1).val = _; rw [e1]; omega
  have hc : brcol j k = rcol (((cfg1.win 3).blk t).view.emb j) k := funext fun a => Fin.ext (by
    match a with
    | ⟨0, _⟩ => rfl
    | ⟨1, _⟩ => exact hr1.symm)
  rw [blk_a V c t (blrow j k) (lrow (((cfg1.win 3).blk t).view.emb j) k) hr0 rfl, blk_b V c t (brow k), blk_w V c t (brcol j k), hc]

/-- An entry is in point t's block iff its row is among that block's 20000 rows. -/
theorem mem_blk (t : Fin cfg1.N) (i : S200000x2.Idx) :
    i ∈ ((cfg1.win 3).blk t).view.set ↔ ∀ a : Fin 2, win1_3.index t a * S20000x2.size a ≤ (i a).val ∧ (i a).val < win1_3.index t a * S20000x2.size a + S20000x2.size a := by
  show i ∈ ((View.whole main_v45).slice (win1_3.rect t)).set ↔ _
  rw [View.set_slice_whole, Rect.mem_set_unit]
  exact Iff.rfl

/-- Every entry lies in the block of the point its row divided by 20000 names. -/
theorem cover (i : S200000x2.Idx) : ∃ t : Fin cfg1.N, (cfg1.win 3).flush t = true ∧ i ∈ ((cfg1.win 3).blk t).view.set := by
  have hi0 : (i 0).val < 200000 := (i 0).isLt
  have hi1 : (i 1).val < 2 := (i 1).isLt
  have hN : cfg1.N = 10 := N_1
  refine ⟨⟨(i 0).val / 20000, by rw [hN]; omega⟩, flush1_3 _, ?_⟩
  obtain ⟨-, -, -, -, -, -, e0, e1⟩ := idx_facts ⟨(i 0).val / 20000, by rw [hN]; omega⟩
  rw [mem_blk]
  intro a
  match a with
  | ⟨0, _⟩ => show win1_3.index _ 0 * 20000 ≤ (i 0).val ∧ (i 0).val < win1_3.index _ 0 * 20000 + 20000; rw [e0]; show (i 0).val / 20000 * 20000 ≤ (i 0).val ∧ (i 0).val < (i 0).val / 20000 * 20000 + 20000; omega
  | ⟨1, _⟩ => show win1_3.index _ 1 * 2 ≤ (i 1).val ∧ (i 1).val < win1_3.index _ 1 * 2 + 2; rw [e1]; omega

/-- The result array after the region: `reluW` of the arrays the region found. -/
theorem final (c : Dev nD) : (dat1 V c).arrAt 3 cfg1.N = reluW (V c main_v43) (V c main_v44) (V c main_arg5) :=
  (dat1 V c).arrAt_eq_of_cover 3 (reluW (V c main_v43) (V c main_v44) (V c main_arg5)) (fun t _ => flushed_eq V c t) cover

end Cert.KernelIdeal.Stage1

end
-- ==== Proof.Stage2.lean ====
/-
  The third node-level stage: out = (agg + b2) · Wl + bl, with agg : [200000, 2], b2 and bl as [1, 2] rows, Wl : [2, 2].

  Point t loads rows 20000·t … of agg, the two bias rows and the whole of Wl; adds b2 to every row of the block,
  multiplies by Wl into a zero accumulator, and adds bl to every row of the product. At the ideal instance entry (p, q)
  of the block is  (∑ₖ (agg[20000·t + p, k] + b2[0, k]) · Wl[k, q]) + bl[0, q],  which is entry (20000·t + p, q) of the
  whole-array function `affW`. The ten blocks tile the 200000 rows, so the result array ends holding `affW` of the
  arrays found.
-/
import proofs.«175485_j32770600469079_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stage2

open Cert.KernelIdeal Cert.KernelIdeal.Gen

/-- The zero offsets of a whole-block access. -/
theorem hz : (![0, 0] : Fin 2 → Nat) = fun _ => 0 := funext fun a => by fin_cases a <;> rfl

/-! ## The specification, entry by entry -/

/-- Entry (i₀, k) of the aggregated features. -/
abbrev lrow (i : S200000x2.Idx) (k : Fin 2) : S200000x2.Idx := fun a => match a with
  | ⟨0, _⟩ => ⟨(i 0).val, (i 0).isLt⟩
  | ⟨1, _⟩ => ⟨k.val, k.isLt⟩
/-- Entry (k, i₁) of the weight. -/
abbrev rcol (i : S200000x2.Idx) (k : Fin 2) : S2x2.Idx := fun a => match a with
  | ⟨0, _⟩ => ⟨k.val, k.isLt⟩
  | ⟨1, _⟩ => ⟨(i 1).val, (i 1).isLt⟩
/-- Entry (0, k) of the inner bias row. -/
abbrev brow (k : Fin 2) : S1x2.Idx := fun a => match a with
  | ⟨0, _⟩ => ⟨0, Nat.one_pos⟩
  | ⟨1, _⟩ => ⟨k.val, k.isLt⟩
/-- Entry (0, i₁) of the outer bias row. -/
abbrev drow (i : S200000x2.Idx) : S1x2.Idx := fun a => match a with
  | ⟨0, _⟩ => ⟨0, Nat.one_pos⟩
  | ⟨1, _⟩ => ⟨(i 1).val, (i 1).isLt⟩

/-- `affW a b w d`: entry i is (the sum over k of (a[i₀, k] + b[0, k]) · w[k, i₁]) + d[0, i₁]. -/
def affW (a : (⟨S200000x2, .f32⟩ : BufTy).Contents (Elt Ideal)) (b : (⟨S1x2, .f32⟩ : BufTy).Contents (Elt Ideal))
    (w : (⟨S2x2, .f32⟩ : BufTy).Contents (Elt Ideal)) (d : (⟨S1x2, .f32⟩ : BufTy).Contents (Elt Ideal)) :
    (⟨S200000x2, .f32⟩ : BufTy).Contents (Elt Ideal) :=
  fun i => (∑ k : Fin 2, (a (lrow i k) + b (brow k)) * w (rcol i k)) + d (drow i)

/-! ## The body's stored value at an entry of the block -/

abbrev blrow (j : S20000x2.Idx) (k : Fin 2) : S20000x2.Idx := fun a => match a with
  | ⟨0, _⟩ => ⟨(j 0).val, (j 0).isLt⟩
  | ⟨1, _⟩ => ⟨k.val, k.isLt⟩
abbrev brcol (j : S20000x2.Idx) (k : Fin 2) : S2x2.Idx := fun a => match a with
  | ⟨0, _⟩ => ⟨k.val, k.isLt⟩
  | ⟨1, _⟩ => ⟨(j 1).val, (j 1).isLt⟩
abbrev bdrow (j : S20000x2.Idx) : S1x2.Idx := fun a => match a with
  | ⟨0, _⟩ => ⟨0, Nat.one_pos⟩
  | ⟨1, _⟩ => ⟨(j 1).val, (j 1).isLt⟩

theorem dK_lhs0 (j : S20000x2.Idx) (q : (dot_S20000x2_S2x2_S20000x2_1_0_0_1_n_n).contr.Idx) :
    ((dot_S20000x2_S2x2_S20000x2_1_0_0_1_n_n).lhsIdx j q 0).val = (j 0).val := by
  unfold DotDims.lhsIdx
  rw [dif_neg (show ¬(0 : Fin S20000x2.rank) ∈ (dot_S20000x2_S2x2_S20000x2_1_0_0_1_n_n).lhsBatch by decide), dif_pos (show (0 : Fin S20000x2.rank) ∈ (dot_S20000x2_S2x2_S20000x2_1_0_0_1_n_n).lhsNonContracting by decide)]
  rfl
theorem dK_lhs1 (j : S20000x2.Idx) (q : (dot_S20000x2_S2x2_S20000x2_1_0_0_1_n_n).contr.Idx) :
    ((dot_S20000x2_S2x2_S20000x2_1_0_0_1_n_n).lhsIdx j q 1).val = (q ⟨0, by decide⟩).val :=
  (dot_S20000x2_S2x2_S20000x2_1_0_0_1_n_n).lhsIdx_val_of_single rfl j q
theorem dK_rhs0 (j : S20000x2.Idx) (q : (dot_S20000x2_S2x2_S20000x2_1_0_0_1_n_n).contr.Idx) :
    ((dot_S20000x2_S2x2_S20000x2_1_0_0_1_n_n).rhsIdx j q 0).val = (q ⟨0, by decide⟩).val :=
  (dot_S20000x2_S2x2_S20000x2_1_0_0_1_n_n).rhsIdx_val_of_single rfl j q
theorem dK_rhs1 (j : S20000x2.Idx) (q : (dot_S20000x2_S2x2_S20000x2_1_0_0_1_n_n).contr.Idx) :
    ((dot_S20000x2_S2x2_S20000x2_1_0_0_1_n_n).rhsIdx j q 1).val = (j 1).val := by
  unfold DotDims.rhsIdx
  rw [dif_neg (show ¬(1 : Fin S2x2.rank) ∈ (dot_S20000x2_S2x2_S20000x2_1_0_0_1_n_n).rhsBatch by decide), dif_pos (show (1 : Fin S2x2.rank) ∈ (dot_S20000x2_S2x2_S20000x2_1_0_0_1_n_n).rhsNonContracting by decide)]
  rfl

/-- The product into the zero accumulator, read at an entry: the plain sum over the contracted axis. -/
theorem prod_apply (L : FVec Ideal S20000x2 .f32) (R : FVec Ideal S2x2 .f32) (j : S20000x2.Idx) :
    FloatOps.matmul (dot_S20000x2_S2x2_S20000x2_1_0_0_1_n_n) none (truncf .bf16 L bitsLt_bf16_f32) (truncf .bf16 R bitsLt_bf16_f32) (constant S20000x2 .f32 0x00000000#32) j
      = ∑ k : Fin 2, L (blrow j k) * R (brcol j k) := by
  rw [Ideal.matmul_constant_zero_apply, ← Equiv.sum_comp (ValueIdx.contrEquiv1 (dot_S20000x2_S2x2_S20000x2_1_0_0_1_n_n) 2 rfl rfl).symm]
  refine Finset.sum_congr rfl fun k _ => ?_
  have hk := ValueIdx.contrEquiv1_symm_val (dot_S20000x2_S2x2_S20000x2_1_0_0_1_n_n) 2 rfl rfl k
  have el : (dot_S20000x2_S2x2_S20000x2_1_0_0_1_n_n).lhsIdx j ((ValueIdx.contrEquiv1 (dot_S20000x2_S2x2_S20000x2_1_0_0_1_n_n) 2 rfl rfl).symm k) = blrow j k := funext fun a => Fin.ext (by
    match a with
    | ⟨0, _⟩ => exact dK_lhs0 _ _
    | ⟨1, _⟩ => exact (dK_lhs1 _ _).trans hk)
  have er : (dot_S20000x2_S2x2_S20000x2_1_0_0_1_n_n).rhsIdx j ((ValueIdx.contrEquiv1 (dot_S20000x2_S2x2_S20000x2_1_0_0_1_n_n) 2 rfl rfl).symm k) = brcol j k := funext fun a => Fin.ext (by
    match a with
    | ⟨0, _⟩ => exact (dK_rhs0 _ _).trans hk
    | ⟨1, _⟩ => exact dK_rhs1 _ _)
  rw [el, er]
  rfl

/-- The inner bias row broadcast over the block's rows, read at (p, k), is the row's entry (0, k). -/
theorem bias_in_apply (b : Vec Ideal S1x2 .f32) (j : S20000x2.Idx) (k : Fin 2) :
    broadcastTo S20000x2 b broadcasts_S1x2_S20000x2 (blrow j k) = b (brow k) := by
  refine broadcastTo_apply b broadcasts_S1x2_S20000x2 (blrow j k) (brow k) fun a => ?_
  match a with
  | ⟨0, _⟩ => rfl
  | ⟨1, _⟩ => rfl

/-- The outer bias row broadcast over the block's rows, read at (p, q), is the row's entry (0, q). -/
theorem bias_out_apply (d : Vec Ideal S1x2 .f32) (j : S20000x2.Idx) :
    broadcastTo S20000x2 d broadcasts_S1x2_S20000x2 j = d (bdrow j) := by
  refine broadcastTo_apply d broadcasts_S1x2_S20000x2 j (bdrow j) fun a => ?_
  match a with
  | ⟨0, _⟩ => rfl
  | ⟨1, _⟩ => rfl

/-- Entry j of the body's stored value. -/
theorem pay_apply (x0 : Vec Ideal S20000x2 .f32) (x1 : Vec Ideal S1x2 .f32) (x2 : Vec Ideal S2x2 .f32) (x3 : Vec Ideal S1x2 .f32) (j : S20000x2.Idx) :
    k2_pay1 (F := Ideal) x0 x1 x2 x3 j = (∑ k : Fin 2, (x0 (blrow j k) + x1 (brow k)) * x2 (brcol j k)) + x3 (bdrow j) := by
  unfold k2_pay1
  simp only [matmul, shapeCast_self]
  rw [ValueIdx.addf_apply, prod_apply]
  refine congrArg₂ (· + ·) (Finset.sum_congr rfl fun k _ => ?_) (bias_out_apply x3 j)
  show (x0 (blrow j k) + broadcastTo S20000x2 x1 broadcasts_S1x2_S20000x2 (blrow j k)) * x2 (brcol j k) = _
  rw [bias_in_apply]

/-! ## The windows' blocks as entries of their arrays -/

variable (V : (c : Dev nD) → (b : Ref sig .tc) → Buf (Elt Ideal) ((c : Thread nD τ).loc b))

/-- The index maps over the grid: the row-blocked windows move one block per point, the others stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The first window's block at point t is rows 20000·t … of the aggregated features. -/
theorem blk_a (c : Dev nD) (t : Fin cfg2.N) (y : S20000x2.Idx) (i : S200000x2.Idx)
    (h0 : (i 0).val = 20000 * t.val + (y 0).val) (h1 : (i 1).val = (y 1).val) :
    (iblk2 V c 0 t : Vec Ideal S20000x2 .f32) y = (V c main_v58 : S200000x2.Idx → Elt Ideal .f32) i := by
  obtain ⟨e0, e1, -⟩ := idx_facts t
  unfold iblk2
  rw [View.read_apply]
  show V c main_v58 _ = V c main_v58 _
  congr 1
  funext a
  apply Fin.ext
  match a with
  | ⟨0, _⟩ => show win2_0.index t 0 * 20000 + 1 * (y 0).val = (i 0).val; rw [e0, h0]; omega
  | ⟨1, _⟩ => show win2_0.index t 1 * 2 + 1 * (y 1).val = (i 1).val; rw [e1, h1]; omega

/-- The inner bias window's block at every point is the whole row. -/
theorem blk_b (c : Dev nD) (t : Fin cfg2.N) (y : S1x2.Idx) :
    (iblk2 V c 1 t : Vec Ideal S1x2 .f32) y = (V c main_v59 : S1x2.Idx → Elt Ideal .f32) y := by
  obtain ⟨-, -, e0, e1, -⟩ := idx_facts t
  unfold iblk2
  rw [View.read_apply]
  show V c main_v59 _ = V c main_v59 _
  congr 1
  funext a
  apply Fin.ext
  match a with
  | ⟨0, _⟩ => show win2_1.index t 0 * 1 + 1 * (y 0).val = (y 0).val; rw [e0]; omega
  | ⟨1, _⟩ => show win2_1.index t 1 * 2 + 1 * (y 1).val = (y 1).val; rw [e1]; omega

/-- The weight window's block at every point is the whole of Wl. -/
theorem blk_w (c : Dev nD) (t : Fin cfg2.N) (y : S2x2.Idx) :
    (iblk2 V c 2 t : Vec Ideal S2x2 .f32) y = (V c main_arg7 : S2x2.Idx → Elt Ideal .f32) y := by
  obtain ⟨-, -, -, -, e0, e1, -⟩ := idx_facts t
  unfold iblk2
  rw [View.read_apply]
  show V c main_arg7 _ = V c main_arg7 _
  congr 1
  funext a
  apply Fin.ext
  match a with
  | ⟨0, _⟩ => show win2_2.index t 0 * 2 + 1 * (y 0).val = (y 0).val; rw [e0]; omega
  | ⟨1, _⟩ => show win2_2.index t 1 * 2 + 1 * (y 1).val = (y 1).val; rw [e1]; omega

/-- The outer bias window's block at every point is the whole row. -/
theorem blk_d (c : Dev nD) (t : Fin cfg2.N) (y : S1x2.Idx) :
    (iblk2 V c 3 t : Vec Ideal S1x2 .f32) y = (V c main_v60 : S1x2.Idx → Elt Ideal .f32) y := by
  obtain ⟨-, -, -, -, -, -, e0, e1, -⟩ := idx_facts t
  unfold iblk2
  rw [View.read_apply]
  show V c main_v60 _ = V c main_v60 _
  congr 1
  funext a
  apply Fin.ext
  match a with
  | ⟨0, _⟩ => show win2_3.index t 0 * 1 + 1 * (y 0).val = (y 0).val; rw [e0]; omega
  | ⟨1, _⟩ => show win2_3.index t 1 * 2 + 1 * (y 1).val = (y 1).val; rw [e1]; omega

/-! ## What a point writes back, the cover, the whole array -/

/-- Point t writes back block t of `affW` of the arrays the region found. -/
theorem flushed_eq (c : Dev nD) (t : Fin cfg2.N) :
    (dat2 V c).flushed 4 t = ((cfg2.win 4).blk t).view.read (Elt Ideal) (affW (V c main_v58) (V c main_v59) (V c main_arg7) (V c main_v60)) := by
  show (cfg2.win 4).cut (grid2.coords t) ((dat2 V c).after 4 t) = _
  rw [after2_4]
  unfold out2_4
  rw [View.canon_unit_zero hz]
  simp only [View.ld_unit_zero (S := S20000x2) hz, View.ld_unit_zero (S := S1x2) hz, View.ld_unit_zero (S := S2x2) hz]
  obtain ⟨-, -, -, -, -, -, -, -, e0, e1⟩ := idx_facts t
  funext j
  show k2_pay1 (F := Ideal) (iblk2 V c 0 t) (iblk2 V c 1 t) (iblk2 V c 2 t) (iblk2 V c 3 t) j = affW (V c main_v58) (V c main_v59) (V c main_arg7) (V c main_v60) (((cfg2.win 4).blk t).view.emb j)
  rw [pay_apply]
  unfold affW
  have hr0 : ((((cfg2.win 4).blk t).view.emb j) 0).val = 20000 * t.val + (j 0).val := by
    show win2_4.index t 0 * 20000 + 1 * (j 0).val = _; rw [e0]; omega
  have hr1 : ((((cfg2.win 4).blk t).view.emb j) 1).val = (j 1).val := by
    show win2_4.index t 1 * 2 + 1 * (j 1).val = _; rw [e1]; omega
  have hd : bdrow j = drow (((cfg2.win 4).blk t).view.emb j) := funext fun a => Fin.ext (by
    match a with
    | ⟨0, _⟩ => rfl
    | ⟨1, _⟩ => exact hr1.symm)
  rw [blk_d V c t (bdrow j), hd]
  refine congrArg₂ (· + ·) (Finset.sum_congr rfl fun k _ => ?_) rfl
  have hc : brcol j k = rcol (((cfg2.win 4).blk t).view.emb j) k := funext fun a => Fin.ext (by
    match a with
    | ⟨0, _⟩ => rfl
    | ⟨1, _⟩ => exact hr1.symm)
  rw [blk_a V c t (blrow j k) (lrow (((cfg2.win 4).blk t).view.emb j) k) hr0 rfl, blk_b V c t (brow k), blk_w V c t (brcol j k), hc]

/-- An entry is in point t's block iff its row is among that block's 20000 rows. -/
theorem mem_blk (t : Fin cfg2.N) (i : S200000x2.Idx) :
    i ∈ ((cfg2.win 4).blk t).view.set ↔ ∀ a : Fin 2, win2_4.index t a * S20000x2.size a ≤ (i a).val ∧ (i a).val < win2_4.index t a * S20000x2.size a + S20000x2.size a := by
  show i ∈ ((View.whole main_v61).slice (win2_4.rect t)).set ↔ _
  rw [View.set_slice_whole, Rect.mem_set_unit]
  exact Iff.rfl

/-- Every entry lies in the block of the point its row divided by 20000 names. -/
theorem cover (i : S200000x2.Idx) : ∃ t : Fin cfg2.N, (cfg2.win 4).flush t = true ∧ i ∈ ((cfg2.win 4).blk t).view.set := by
  have hi0 : (i 0).val < 200000 := (i 0).isLt
  have hi1 : (i 1).val < 2 := (i 1).isLt
  have hN : cfg2.N = 10 := N_2
  refine ⟨⟨(i 0).val / 20000, by rw [hN]; omega⟩, flush2_4 _, ?_⟩
  obtain ⟨-, -, -, -, -, -, -, -, e0, e1⟩ := idx_facts ⟨(i 0).val / 20000, by rw [hN]; omega⟩
  rw [mem_blk]
  intro a
  match a with
  | ⟨0, _⟩ => show win2_4.index _ 0 * 20000 ≤ (i 0).val ∧ (i 0).val < win2_4.index _ 0 * 20000 + 20000; rw [e0]; show (i 0).val / 20000 * 20000 ≤ (i 0).val ∧ (i 0).val < (i 0).val / 20000 * 20000 + 20000; omega
  | ⟨1, _⟩ => show win2_4.index _ 1 * 2 ≤ (i 1).val ∧ (i 1).val < win2_4.index _ 1 * 2 + 2; rw [e1]; omega

/-- The result array after the region: `affW` of the arrays the region found. -/
theorem final (c : Dev nD) : (dat2 V c).arrAt 4 cfg2.N = affW (V c main_v58) (V c main_v59) (V c main_arg7) (V c main_v60) :=
  (dat2 V c).arrAt_eq_of_cover 4 (affW (V c main_v58) (V c main_v59) (V c main_arg7) (V c main_v60)) (fun t _ => flushed_eq V c t) cover

end Cert.KernelIdeal.Stage2

end
-- ==== Proof.HostFold.lean ====
/-
  The host stretches of the idealized kernel's @main, each read by itself over an arbitrary valuation of the buffers.

  Before the first region: the edge endpoints with the self loops appended (source and target index vectors), and the
  symmetric edge weight  norm[e] = dinv[src e] · dinv[dst e]  with dinv = where(deg > 0, rsqrt deg, 0) and deg the number
  of edges into each node. Between the regions: one message pass — gather the rows of the node features along the source
  index (negative indices wrapped by the node count), scale each by its edge weight, scatter-add into the target nodes —
  and the bias re-laid from a vector to a one-row matrix. After the last region: the per-graph sums and counts by
  scatter-add along the graph index, and the quotient by max(count, 1).

  These are operation for operation the reference's own host operations, so each buffer a stretch writes is the
  reference's stage function of the same name, once the buffers the stretch reads are. A buffer no operation of a
  stretch writes keeps its contents.
-/
import proofs.«175485_j32770600469079_2_alg».proof.Proof.Gen.KernelIdeal.Launch
import proofs.«175485_j32770600469079_2_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostFold

open Cert.KernelIdeal Cert.KernelIdeal.Gen

variable (Wv : Valuation τ sig (Elt Ideal))

/-! ## Before the first region: the index vectors and the edge weight -/

set_option maxHeartbeats 4000000 in
/-- The source index vector: the first row of the edge list, then 0 … 199999. -/
theorem A_v3 : after (hostOps0_2 (F := Ideal)) (after (hostOps0_1 (F := Ideal)) (after (hostOps0 (F := Ideal)) Wv)) (Proc.devRef .tc main_v3)
    = Cert.ReferenceIdeal.Read.val_main_v3 (F := Ideal) (Wv (Proc.devRef .tc main_arg1)) := by
  after_results_simp
  rfl

set_option maxHeartbeats 4000000 in
/-- The target index vector: the second row of the edge list, then 0 … 199999. -/
theorem A_v6 : after (hostOps0_2 (F := Ideal)) (after (hostOps0_1 (F := Ideal)) (after (hostOps0 (F := Ideal)) Wv)) (Proc.devRef .tc main_v6)
    = Cert.ReferenceIdeal.Read.val_main_v6 (F := Ideal) (Wv (Proc.devRef .tc main_arg1)) := by
  after_results_simp
  rfl

/-! The edge weight is read in three steps, one per stretch, each with the buffers it reads already named. -/

set_option maxHeartbeats 4000000 in
/-- First stretch: the source index vector. -/
theorem A1_v3 : after (hostOps0 (F := Ideal)) Wv (Proc.devRef .tc main_v3) = Cert.ReferenceIdeal.Read.val_main_v3 (F := Ideal) (Wv (Proc.devRef .tc main_arg1)) := by
  after_results_simp
  rfl
set_option maxHeartbeats 4000000 in
/-- First stretch: the target index vector. -/
theorem A1_v6 : after (hostOps0 (F := Ideal)) Wv (Proc.devRef .tc main_v6) = Cert.ReferenceIdeal.Read.val_main_v6 (F := Ideal) (Wv (Proc.devRef .tc main_arg1)) := by
  after_results_simp
  rfl
set_option maxHeartbeats 4000000 in
/-- First stretch: which nodes have an edge into them (deg > 0; with the self loops, all of them). -/
theorem A1_v12 : after (hostOps0 (F := Ideal)) Wv (Proc.devRef .tc main_v12) = Cert.ReferenceIdeal.Read.val_main_v12 (F := Ideal) (Wv (Proc.devRef .tc main_arg1)) := by
  after_results_simp
  rfl
set_option maxHeartbeats 4000000 in
/-- First stretch: rsqrt of the degrees. -/
theorem A1_v13 : after (hostOps0 (F := Ideal)) Wv (Proc.devRef .tc main_v13) = Cert.ReferenceIdeal.Read.val_main_v13 (F := Ideal) (Wv (Proc.devRef .tc main_arg1)) := by
  after_results_simp
  rfl
/-- First stretch: the zero the `where` falls back to. -/
theorem A1_cst_2 : after (hostOps0 (F := Ideal)) Wv (Proc.devRef .tc main_cst_2) = Cert.ReferenceIdeal.Read.val_main_cst_2 (F := Ideal) := by
  after_results_simp
  rfl

/-- Second stretch: dinv = where(deg > 0, rsqrt deg, 0). -/
theorem A2_v14 (x1 : (⟨Cert.ReferenceIdeal.S2x6400000, .i32⟩ : BufTy).Contents (Elt Ideal))
    (h12 : Wv (Proc.devRef .tc main_v12) = Cert.ReferenceIdeal.Read.val_main_v12 (F := Ideal) x1)
    (h13 : Wv (Proc.devRef .tc main_v13) = Cert.ReferenceIdeal.Read.val_main_v13 (F := Ideal) x1)
    (hc : Wv (Proc.devRef .tc main_cst_2) = Cert.ReferenceIdeal.Read.val_main_cst_2 (F := Ideal)) :
    after (hostOps0_1 (F := Ideal)) Wv (Proc.devRef .tc main_v14) = Cert.ReferenceIdeal.Read.val_main_v14 (F := Ideal) x1 := by
  after_results_simp
  show select (Wv (Proc.devRef .tc main_v12)) (Wv (Proc.devRef .tc main_v13)) (broadcastInDim S200000 ![] bcast_S_S200000 (id (Wv (Proc.devRef .tc main_cst_2)))) = _
  rw [h12, h13, hc]
  rfl
theorem A2_v3 : after (hostOps0_1 (F := Ideal)) Wv (Proc.devRef .tc main_v3) = Wv (Proc.devRef .tc main_v3) := by
  after_results_simp
theorem A2_v6 : after (hostOps0_1 (F := Ideal)) Wv (Proc.devRef .tc main_v6) = Wv (Proc.devRef .tc main_v6) := by
  after_results_simp

set_option maxHeartbeats 4000000 in
/-- Third stretch: norm[e] = dinv[src e] · dinv[dst e]. -/
theorem A3_v29 (x1 : (⟨Cert.ReferenceIdeal.S2x6400000, .i32⟩ : BufTy).Contents (Elt Ideal))
    (h14 : Wv (Proc.devRef .tc main_v14) = Cert.ReferenceIdeal.Read.val_main_v14 (F := Ideal) x1)
    (h3 : Wv (Proc.devRef .tc main_v3) = Cert.ReferenceIdeal.Read.val_main_v3 (F := Ideal) x1)
    (h6 : Wv (Proc.devRef .tc main_v6) = Cert.ReferenceIdeal.Read.val_main_v6 (F := Ideal) x1) :
    after (hostOps0_2 (F := Ideal)) Wv (Proc.devRef .tc main_v29) = Cert.ReferenceIdeal.Read.val_main_v29 (F := Ideal) x1 := by
  after_results_simp
  rw [h14, h3, h6]
  rfl

/-- The edge weight. -/
theorem A_v29 : after (hostOps0_2 (F := Ideal)) (after (hostOps0_1 (F := Ideal)) (after (hostOps0 (F := Ideal)) Wv)) (Proc.devRef .tc main_v29)
    = Cert.ReferenceIdeal.Read.val_main_v29 (F := Ideal) (Wv (Proc.devRef .tc main_arg1)) :=
  A3_v29 (after (hostOps0_1 (F := Ideal)) (after (hostOps0 (F := Ideal)) Wv)) _
    (A2_v14 (after (hostOps0 (F := Ideal)) Wv) _ (A1_v12 Wv) (A1_v13 Wv) (A1_cst_2 Wv))
    ((A2_v3 (after (hostOps0 (F := Ideal)) Wv)).trans (A1_v3 Wv))
    ((A2_v6 (after (hostOps0 (F := Ideal)) Wv)).trans (A1_v6 Wv))

set_option maxHeartbeats 4000000 in
theorem A_arg0 : after (hostOps0_2 (F := Ideal)) (after (hostOps0_1 (F := Ideal)) (after (hostOps0 (F := Ideal)) Wv)) (Proc.devRef .tc main_arg0) = Wv (Proc.devRef .tc main_arg0) := by
  after_results_simp

set_option maxHeartbeats 4000000 in
theorem A_arg2 : after (hostOps0_2 (F := Ideal)) (after (hostOps0_1 (F := Ideal)) (after (hostOps0 (F := Ideal)) Wv)) (Proc.devRef .tc main_arg2) = Wv (Proc.devRef .tc main_arg2) := by
  after_results_simp

set_option maxHeartbeats 4000000 in
theorem A_arg3 : after (hostOps0_2 (F := Ideal)) (after (hostOps0_1 (F := Ideal)) (after (hostOps0 (F := Ideal)) Wv)) (Proc.devRef .tc main_arg3) = Wv (Proc.devRef .tc main_arg3) := by
  after_results_simp

set_option maxHeartbeats 4000000 in
theorem A_arg4 : after (hostOps0_2 (F := Ideal)) (after (hostOps0_1 (F := Ideal)) (after (hostOps0 (F := Ideal)) Wv)) (Proc.devRef .tc main_arg4) = Wv (Proc.devRef .tc main_arg4) := by
  after_results_simp

set_option maxHeartbeats 4000000 in
theorem A_arg5 : after (hostOps0_2 (F := Ideal)) (after (hostOps0_1 (F := Ideal)) (after (hostOps0 (F := Ideal)) Wv)) (Proc.devRef .tc main_arg5) = Wv (Proc.devRef .tc main_arg5) := by
  after_results_simp

set_option maxHeartbeats 4000000 in
theorem A_arg6 : after (hostOps0_2 (F := Ideal)) (after (hostOps0_1 (F := Ideal)) (after (hostOps0 (F := Ideal)) Wv)) (Proc.devRef .tc main_arg6) = Wv (Proc.devRef .tc main_arg6) := by
  after_results_simp

set_option maxHeartbeats 4000000 in
theorem A_arg7 : after (hostOps0_2 (F := Ideal)) (after (hostOps0_1 (F := Ideal)) (after (hostOps0 (F := Ideal)) Wv)) (Proc.devRef .tc main_arg7) = Wv (Proc.devRef .tc main_arg7) := by
  after_results_simp

set_option maxHeartbeats 4000000 in
theorem A_arg8 : after (hostOps0_2 (F := Ideal)) (after (hostOps0_1 (F := Ideal)) (after (hostOps0 (F := Ideal)) Wv)) (Proc.devRef .tc main_arg8) = Wv (Proc.devRef .tc main_arg8) := by
  after_results_simp

/-! ## Between the first and the second region: the first message pass -/

set_option maxHeartbeats 4000000 in
/-- The aggregated first-layer features, once the product, the index vectors and the edge weight are the reference's. -/
theorem B_v43 (x0 : (⟨Cert.ReferenceIdeal.S200000x4, .f32⟩ : BufTy).Contents (Elt Ideal)) (x1 : (⟨Cert.ReferenceIdeal.S2x6400000, .i32⟩ : BufTy).Contents (Elt Ideal)) (x3 : (⟨Cert.ReferenceIdeal.S4x16, .f32⟩ : BufTy).Contents (Elt Ideal))
    (h30 : Wv (Proc.devRef .tc main_v30) = Cert.ReferenceIdeal.Read.val_main_v30 (F := Ideal) x0 x3)
    (h3 : Wv (Proc.devRef .tc main_v3) = Cert.ReferenceIdeal.Read.val_main_v3 (F := Ideal) x1)
    (h6 : Wv (Proc.devRef .tc main_v6) = Cert.ReferenceIdeal.Read.val_main_v6 (F := Ideal) x1)
    (h29 : Wv (Proc.devRef .tc main_v29) = Cert.ReferenceIdeal.Read.val_main_v29 (F := Ideal) x1) :
    after (hostOps1 (F := Ideal)) Wv (Proc.devRef .tc main_v43) = Cert.ReferenceIdeal.Read.val_main_v43 (F := Ideal) x0 x1 x3 := by
  after_results_simp
  rw [h30, h3, h6, h29]
  rfl

/-- The first bias as a one-row matrix. -/
theorem B_v44 : after (hostOps1 (F := Ideal)) Wv (Proc.devRef .tc main_v44) = shapeCast S1x16 (Wv (Proc.devRef .tc main_arg4)) shapeCasts_S16_S1x16 := by
  after_results_simp
  rfl

theorem B_v3 : after (hostOps1 (F := Ideal)) Wv (Proc.devRef .tc main_v3) = Wv (Proc.devRef .tc main_v3) := by
  after_results_simp

theorem B_v6 : after (hostOps1 (F := Ideal)) Wv (Proc.devRef .tc main_v6) = Wv (Proc.devRef .tc main_v6) := by
  after_results_simp

theorem B_v29 : after (hostOps1 (F := Ideal)) Wv (Proc.devRef .tc main_v29) = Wv (Proc.devRef .tc main_v29) := by
  after_results_simp

theorem B_arg2 : after (hostOps1 (F := Ideal)) Wv (Proc.devRef .tc main_arg2) = Wv (Proc.devRef .tc main_arg2) := by
  after_results_simp

theorem B_arg5 : after (hostOps1 (F := Ideal)) Wv (Proc.devRef .tc main_arg5) = Wv (Proc.devRef .tc main_arg5) := by
  after_results_simp

theorem B_arg6 : after (hostOps1 (F := Ideal)) Wv (Proc.devRef .tc main_arg6) = Wv (Proc.devRef .tc main_arg6) := by
  after_results_simp

theorem B_arg7 : after (hostOps1 (F := Ideal)) Wv (Proc.devRef .tc main_arg7) = Wv (Proc.devRef .tc main_arg7) := by
  after_results_simp

theorem B_arg8 : after (hostOps1 (F := Ideal)) Wv (Proc.devRef .tc main_arg8) = Wv (Proc.devRef .tc main_arg8) := by
  after_results_simp

/-! ## Between the second and the third region: the second message pass -/

set_option maxHeartbeats 4000000 in
/-- The aggregated second-layer features. -/
theorem C_v58 (x0 : (⟨Cert.ReferenceIdeal.S200000x4, .f32⟩ : BufTy).Contents (Elt Ideal)) (x1 : (⟨Cert.ReferenceIdeal.S2x6400000, .i32⟩ : BufTy).Contents (Elt Ideal)) (x3 : (⟨Cert.ReferenceIdeal.S4x16, .f32⟩ : BufTy).Contents (Elt Ideal)) (x4 : (⟨Cert.ReferenceIdeal.S16, .f32⟩ : BufTy).Contents (Elt Ideal)) (x5 : (⟨Cert.ReferenceIdeal.S16x2, .f32⟩ : BufTy).Contents (Elt Ideal))
    (h45 : Wv (Proc.devRef .tc main_v45) = Cert.ReferenceIdeal.Read.val_main_v48 (F := Ideal) x0 x1 x3 x4 x5)
    (h3 : Wv (Proc.devRef .tc main_v3) = Cert.ReferenceIdeal.Read.val_main_v3 (F := Ideal) x1)
    (h6 : Wv (Proc.devRef .tc main_v6) = Cert.ReferenceIdeal.Read.val_main_v6 (F := Ideal) x1)
    (h29 : Wv (Proc.devRef .tc main_v29) = Cert.ReferenceIdeal.Read.val_main_v29 (F := Ideal) x1) :
    after (hostOps2 (F := Ideal)) Wv (Proc.devRef .tc main_v58) = Cert.ReferenceIdeal.Read.val_main_v61 (F := Ideal) x0 x1 x3 x4 x5 := by
  after_results_simp
  rw [h45, h3, h6, h29]
  rfl

/-- The second bias as a one-row matrix. -/
theorem C_v59 : after (hostOps2 (F := Ideal)) Wv (Proc.devRef .tc main_v59) = shapeCast S1x2 (Wv (Proc.devRef .tc main_arg6)) shapeCasts_S2_S1x2 := by
  after_results_simp
  rfl

/-- The head's bias as a one-row matrix. -/
theorem C_v60 : after (hostOps2 (F := Ideal)) Wv (Proc.devRef .tc main_v60) = shapeCast S1x2 (Wv (Proc.devRef .tc main_arg8)) shapeCasts_S2_S1x2 := by
  after_results_simp
  rfl

theorem C_arg2 : after (hostOps2 (F := Ideal)) Wv (Proc.devRef .tc main_arg2) = Wv (Proc.devRef .tc main_arg2) := by
  after_results_simp

theorem C_arg7 : after (hostOps2 (F := Ideal)) Wv (Proc.devRef .tc main_arg7) = Wv (Proc.devRef .tc main_arg7) := by
  after_results_simp

/-! ## After the third region: the mean pool over the graphs -/

set_option maxHeartbeats 4000000 in
/-- The pooled result, once the node outputs are the reference's and the graph index is the argument. -/
theorem D_v73 (x0 : (⟨Cert.ReferenceIdeal.S200000x4, .f32⟩ : BufTy).Contents (Elt Ideal)) (x1 : (⟨Cert.ReferenceIdeal.S2x6400000, .i32⟩ : BufTy).Contents (Elt Ideal)) (x2 : (⟨Cert.ReferenceIdeal.S200000, .i32⟩ : BufTy).Contents (Elt Ideal)) (x3 : (⟨Cert.ReferenceIdeal.S4x16, .f32⟩ : BufTy).Contents (Elt Ideal)) (x4 : (⟨Cert.ReferenceIdeal.S16, .f32⟩ : BufTy).Contents (Elt Ideal)) (x5 : (⟨Cert.ReferenceIdeal.S16x2, .f32⟩ : BufTy).Contents (Elt Ideal)) (x6 : (⟨Cert.ReferenceIdeal.S2, .f32⟩ : BufTy).Contents (Elt Ideal)) (x7 : (⟨Cert.ReferenceIdeal.S2x2, .f32⟩ : BufTy).Contents (Elt Ideal)) (x8 : (⟨Cert.ReferenceIdeal.S2, .f32⟩ : BufTy).Contents (Elt Ideal))
    (h61 : Wv (Proc.devRef .tc main_v61) = Cert.ReferenceIdeal.Read.val_main_v68 (F := Ideal) x0 x1 x3 x4 x5 x6 x7 x8)
    (h2 : Wv (Proc.devRef .tc main_arg2) = x2) :
    after (hostOps3 (F := Ideal)) Wv (Proc.devRef .tc main_v73) = Cert.ReferenceIdeal.Read.val_main_v80 (F := Ideal) x0 x1 x2 x3 x4 x5 x6 x7 x8 := by
  after_results_simp
  rw [h61, h2]
  rfl

end Cert.KernelIdeal.HostFold

end
-- ==== Proof.RefBridge.lean ====
/-
  The reference's three dense stages are the three whole-array functions the kernel's regions compute.

  The reference computes  x · W1,  relu(agg + b1) · W2  and  (agg + b2) · Wl + bl  by one matrix product each over all
  200000 rows, the biases broadcast from vectors along the rows. Read at an entry, a host matrix product at the ideal
  instance is the plain sum over the contracted axis, the sum the kernel's block products add up to, and the
  broadcast bias is the vector's entry at the column, which is also what the kernel reads from the bias re-laid as a
  one-row matrix (entry (0, k) of the row is entry k of the vector: both sit at row-major position k). No law of the
  extended reals beyond that is used: both sides are the same sums of the same products.
-/
import proofs.«175485_j32770600469079_2_alg».proof.Proof.Stage0
import proofs.«175485_j32770600469079_2_alg».proof.Proof.Stage1
import proofs.«175485_j32770600469079_2_alg».proof.Proof.Stage2
import proofs.«175485_j32770600469079_2_alg».proof.Proof.RefRead

set_option maxRecDepth 16384

noncomputable section

open Idealize.ShloMosaic Idealize.ShloMosaic.TcCoe Idealize.SL.Sem

namespace Cert.KernelIdeal.RefBridge

open Cert.KernelIdeal Cert.KernelIdeal.Gen

/-- x · W1: the reference's product is `xW`. -/
theorem stage0 (x0 : (⟨Cert.ReferenceIdeal.S200000x4, .f32⟩ : BufTy).Contents (Elt Ideal)) (x3 : (⟨Cert.ReferenceIdeal.S4x16, .f32⟩ : BufTy).Contents (Elt Ideal)) :
    Stage0.xW x0 x3 = Cert.ReferenceIdeal.Read.val_main_v30 (F := Ideal) x0 x3 := by
  funext i
  rw [Cert.ReferenceIdeal.Read.val_main_v30_apply]
  rfl

/-- Entry (0, k) of the first bias re-laid as a row is entry k of the vector. -/
theorem bias1_row (x4 : (⟨Cert.ReferenceIdeal.S16, .f32⟩ : BufTy).Contents (Elt Ideal)) (k : Fin 16) (kk : S16.Idx) (hk : (kk 0).val = k.val) :
    shapeCast S1x16 x4 shapeCasts_S16_S1x16 (Stage1.brow k) = x4 kk :=
  shapeCast_apply x4 shapeCasts_S16_S1x16 (Stage1.brow k) kk (by
    rw [Shape.rowMajor_val_one, Shape.rowMajor_val_two]
    show (kk 0).val = 0 * 16 + k.val
    omega)

/-- relu(agg + b1) · W2: the reference's second dense stage is `reluW` of its aggregated features, the bias as a row. -/
theorem stage1 (x0 : (⟨Cert.ReferenceIdeal.S200000x4, .f32⟩ : BufTy).Contents (Elt Ideal)) (x1 : (⟨Cert.ReferenceIdeal.S2x6400000, .i32⟩ : BufTy).Contents (Elt Ideal)) (x3 : (⟨Cert.ReferenceIdeal.S4x16, .f32⟩ : BufTy).Contents (Elt Ideal)) (x4 : (⟨Cert.ReferenceIdeal.S16, .f32⟩ : BufTy).Contents (Elt Ideal)) (x5 : (⟨Cert.ReferenceIdeal.S16x2, .f32⟩ : BufTy).Contents (Elt Ideal)) :
    Stage1.reluW (Cert.ReferenceIdeal.Read.val_main_v43 (F := Ideal) x0 x1 x3) (shapeCast S1x16 x4 shapeCasts_S16_S1x16) x5
      = Cert.ReferenceIdeal.Read.val_main_v48 (F := Ideal) x0 x1 x3 x4 x5 := by
  funext i
  rw [Cert.ReferenceIdeal.Read.val_main_v48_apply]
  unfold Stage1.reluW
  refine Finset.sum_congr rfl fun k _ => ?_
  rw [Cert.ReferenceIdeal.Read.val_main_v47_apply, Cert.ReferenceIdeal.Read.val_main_v46_apply, Cert.ReferenceIdeal.Read.val_main_v45_apply, Cert.ReferenceIdeal.Read.val_main_v44_apply,
    Cert.ReferenceIdeal.Read.val_main_call1_v0_apply, Cert.ReferenceIdeal.Read.val_main_call1_cst_apply,
    bias1_row x4 k (Cert.ReferenceIdeal.Read.idx_main_v44 (Cert.ReferenceIdeal.Read.idx_main_v45 (Cert.ReferenceIdeal.Read.lidx_main_v48 i k))) rfl]
  rfl

/-- Entry (0, k) of a two-entry bias re-laid as a row is entry k of the vector. -/
theorem bias2_row (x : (⟨Cert.ReferenceIdeal.S2, .f32⟩ : BufTy).Contents (Elt Ideal)) (q : S1x2.Idx) (kk : S2.Idx) (h0 : (q 0).val = 0) (hk : (kk 0).val = (q 1).val) :
    shapeCast S1x2 x shapeCasts_S2_S1x2 q = x kk :=
  shapeCast_apply x shapeCasts_S2_S1x2 q kk (by
    rw [Shape.rowMajor_val_one, Shape.rowMajor_val_two]
    show (kk 0).val = (q 0).val * 2 + (q 1).val
    omega)

/-- (agg + b2) · Wl + bl: the reference's third dense stage is `affW` of its aggregated features, the biases as rows. -/
theorem stage2 (x0 : (⟨Cert.ReferenceIdeal.S200000x4, .f32⟩ : BufTy).Contents (Elt Ideal)) (x1 : (⟨Cert.ReferenceIdeal.S2x6400000, .i32⟩ : BufTy).Contents (Elt Ideal)) (x3 : (⟨Cert.ReferenceIdeal.S4x16, .f32⟩ : BufTy).Contents (Elt Ideal)) (x4 : (⟨Cert.ReferenceIdeal.S16, .f32⟩ : BufTy).Contents (Elt Ideal)) (x5 : (⟨Cert.ReferenceIdeal.S16x2, .f32⟩ : BufTy).Contents (Elt Ideal)) (x6 : (⟨Cert.ReferenceIdeal.S2, .f32⟩ : BufTy).Contents (Elt Ideal)) (x7 : (⟨Cert.ReferenceIdeal.S2x2, .f32⟩ : BufTy).Contents (Elt Ideal)) (x8 : (⟨Cert.ReferenceIdeal.S2, .f32⟩ : BufTy).Contents (Elt Ideal)) :
    Stage2.affW (Cert.ReferenceIdeal.Read.val_main_v61 (F := Ideal) x0 x1 x3 x4 x5) (shapeCast S1x2 x6 shapeCasts_S2_S1x2) x7 (shapeCast S1x2 x8 shapeCasts_S2_S1x2)
      = Cert.ReferenceIdeal.Read.val_main_v68 (F := Ideal) x0 x1 x3 x4 x5 x6 x7 x8 := by
  funext i
  rw [Cert.ReferenceIdeal.Read.val_main_v68_apply, Cert.ReferenceIdeal.Read.val_main_v65_apply, Cert.ReferenceIdeal.Read.val_main_v67_apply, Cert.ReferenceIdeal.Read.val_main_v66_apply]
  unfold Stage2.affW
  have hs : (∑ k : Fin 2, ((Cert.ReferenceIdeal.Read.val_main_v61 (F := Ideal) x0 x1 x3 x4 x5) (Stage2.lrow i k) + shapeCast S1x2 x6 shapeCasts_S2_S1x2 (Stage2.brow k)) * x7 (Stage2.rcol i k))
      = ∑ k : Fin 2, (Cert.ReferenceIdeal.Read.val_main_v64 (F := Ideal) x0 x1 x3 x4 x5 x6) (Cert.ReferenceIdeal.Read.lidx_main_v65 i k) * x7 (Cert.ReferenceIdeal.Read.ridx_main_v65 i k) :=
    Finset.sum_congr rfl fun k _ => by
      rw [Cert.ReferenceIdeal.Read.val_main_v64_apply, Cert.ReferenceIdeal.Read.val_main_v63_apply, Cert.ReferenceIdeal.Read.val_main_v62_apply,
        bias2_row x6 (Stage2.brow k) (Cert.ReferenceIdeal.Read.idx_main_v62 (Cert.ReferenceIdeal.Read.idx_main_v63 (Cert.ReferenceIdeal.Read.lidx_main_v65 i k))) rfl rfl]
      rfl
  rw [hs, bias2_row x8 (Stage2.drow i) (Cert.ReferenceIdeal.Read.idx_main_v66 (Cert.ReferenceIdeal.Read.idx_main_v67 i)) rfl rfl]
  rfl

end Cert.KernelIdeal.RefBridge

end
-- ==== Proof.FoldChain.lean ====
/-
  The idealized kernel's result, read back through its nine segments.

  The buffer contents at each segment boundary are a fold from the launch memory: a host stretch rewrites the buffers its
  operations write, a region leaves its output array at what its write-backs add up to and every other buffer alone.
  Walking the fold forward with the arguments x, edge_index, batch, W1, b1, W2, b2, Wl, bl as launched:

    before region 1    the index vectors and the edge weight are the reference's stage functions of edge_index;
    after region 1     its output array is x · W1 (the ten row blocks tile the array), the reference's first product;
    before region 2    the first message pass of that product is the reference's aggregated features, b1 is a row;
    after region 2     its output array is relu(agg + b1) · W2, the reference's second product;
    before region 3    the second message pass, and b2, bl as rows;
    after region 3     its output array is (agg + b2) · Wl + bl, the reference's node outputs;
    at the return      the mean pool of the node outputs over batch: the reference's result function.

  So the kernel's result buffer ends at the reference's result function of the launch arguments.
-/
import proofs.«175485_j32770600469079_2_alg».proof.Proof.Gen.KernelIdeal.Frame
import proofs.«175485_j32770600469079_2_alg».proof.Proof.Stage0
import proofs.«175485_j32770600469079_2_alg».proof.Proof.Stage1
import proofs.«175485_j32770600469079_2_alg».proof.Proof.Stage2
import proofs.«175485_j32770600469079_2_alg».proof.Proof.HostFold
import proofs.«175485_j32770600469079_2_alg».proof.Proof.RefBridge

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg) (c : Dev nD)

/-! ## Entering the first region -/

/-- The source index vector. -/
theorem w3_v3 : W3 m ρ c (Proc.devRef .tc main_v3) = Cert.ReferenceIdeal.Read.val_main_v3 (F := Ideal) (m ((c : Thread nD τ).loc main_arg1)) :=
  Cert.KernelIdeal.HostFold.A_v3 (W0 m ρ c)
/-- The target index vector. -/
theorem w3_v6 : W3 m ρ c (Proc.devRef .tc main_v6) = Cert.ReferenceIdeal.Read.val_main_v6 (F := Ideal) (m ((c : Thread nD τ).loc main_arg1)) :=
  Cert.KernelIdeal.HostFold.A_v6 (W0 m ρ c)
/-- The edge weight. -/
theorem w3_v29 : W3 m ρ c (Proc.devRef .tc main_v29) = Cert.ReferenceIdeal.Read.val_main_v29 (F := Ideal) (m ((c : Thread nD τ).loc main_arg1)) :=
  Cert.KernelIdeal.HostFold.A_v29 (W0 m ρ c)
theorem w3_arg0 : W3 m ρ c (Proc.devRef .tc main_arg0) = (m ((c : Thread nD τ).loc main_arg0)) :=
  Cert.KernelIdeal.HostFold.A_arg0 (W0 m ρ c)
theorem w3_arg2 : W3 m ρ c (Proc.devRef .tc main_arg2) = (m ((c : Thread nD τ).loc main_arg2)) :=
  Cert.KernelIdeal.HostFold.A_arg2 (W0 m ρ c)
theorem w3_arg3 : W3 m ρ c (Proc.devRef .tc main_arg3) = (m ((c : Thread nD τ).loc main_arg3)) :=
  Cert.KernelIdeal.HostFold.A_arg3 (W0 m ρ c)
theorem w3_arg4 : W3 m ρ c (Proc.devRef .tc main_arg4) = (m ((c : Thread nD τ).loc main_arg4)) :=
  Cert.KernelIdeal.HostFold.A_arg4 (W0 m ρ c)
theorem w3_arg5 : W3 m ρ c (Proc.devRef .tc main_arg5) = (m ((c : Thread nD τ).loc main_arg5)) :=
  Cert.KernelIdeal.HostFold.A_arg5 (W0 m ρ c)
theorem w3_arg6 : W3 m ρ c (Proc.devRef .tc main_arg6) = (m ((c : Thread nD τ).loc main_arg6)) :=
  Cert.KernelIdeal.HostFold.A_arg6 (W0 m ρ c)
theorem w3_arg7 : W3 m ρ c (Proc.devRef .tc main_arg7) = (m ((c : Thread nD τ).loc main_arg7)) :=
  Cert.KernelIdeal.HostFold.A_arg7 (W0 m ρ c)
theorem w3_arg8 : W3 m ρ c (Proc.devRef .tc main_arg8) = (m ((c : Thread nD τ).loc main_arg8)) :=
  Cert.KernelIdeal.HostFold.A_arg8 (W0 m ρ c)

/-! ## Leaving the first region -/

/-- The first region's output array is x · W1, the reference's first product. -/
theorem w4_v30 : W4 m ρ c (Proc.devRef .tc main_v30) = Cert.ReferenceIdeal.Read.val_main_v30 (F := Ideal) (m ((c : Thread nD τ).loc main_arg0)) (m ((c : Thread nD τ).loc main_arg3)) := by
  refine (W4_arr m ρ c 2).trans ?_
  rw [Stage0.final (V3 m ρ) c]
  show Stage0.xW (W3 m ρ c (Proc.devRef .tc main_arg0)) (W3 m ρ c (Proc.devRef .tc main_arg3)) = _
  rw [w3_arg0 m ρ c, w3_arg3 m ρ c]
  exact RefBridge.stage0 _ _
theorem w4_v3 : W4 m ρ c (Proc.devRef .tc main_v3) = Cert.ReferenceIdeal.Read.val_main_v3 (F := Ideal) (m ((c : Thread nD τ).loc main_arg1)) :=
  (W4_of_ne m ρ c main_v3 (by decide)).trans (w3_v3 m ρ c)
theorem w4_v6 : W4 m ρ c (Proc.devRef .tc main_v6) = Cert.ReferenceIdeal.Read.val_main_v6 (F := Ideal) (m ((c : Thread nD τ).loc main_arg1)) :=
  (W4_of_ne m ρ c main_v6 (by decide)).trans (w3_v6 m ρ c)
theorem w4_v29 : W4 m ρ c (Proc.devRef .tc main_v29) = Cert.ReferenceIdeal.Read.val_main_v29 (F := Ideal) (m ((c : Thread nD τ).loc main_arg1)) :=
  (W4_of_ne m ρ c main_v29 (by decide)).trans (w3_v29 m ρ c)
theorem w4_arg2 : W4 m ρ c (Proc.devRef .tc main_arg2) = (m ((c : Thread nD τ).loc main_arg2)) :=
  (W4_of_ne m ρ c main_arg2 (by decide)).trans (w3_arg2 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)

/-! ## Entering the second region -/

/-- The first message pass of x · W1 is the reference's aggregated first-layer features. -/
theorem w5_v43 : W5 m ρ c (Proc.devRef .tc main_v43) = Cert.ReferenceIdeal.Read.val_main_v43 (F := Ideal) (m ((c : Thread nD τ).loc main_arg0)) (m ((c : Thread nD τ).loc main_arg1)) (m ((c : Thread nD τ).loc main_arg3)) :=
  Cert.KernelIdeal.HostFold.B_v43 (W4 m ρ c) _ _ _ (w4_v30 m ρ c) (w4_v3 m ρ c) (w4_v6 m ρ c) (w4_v29 m ρ c)
/-- The first bias as a one-row matrix. -/
theorem w5_v44 : W5 m ρ c (Proc.devRef .tc main_v44) = shapeCast S1x16 (m ((c : Thread nD τ).loc main_arg4)) shapeCasts_S16_S1x16 :=
  (Cert.KernelIdeal.HostFold.B_v44 (W4 m ρ c)).trans (congrArg (fun z => shapeCast S1x16 z shapeCasts_S16_S1x16) (w4_arg4 m ρ c))
theorem w5_v3 : W5 m ρ c (Proc.devRef .tc main_v3) = Cert.ReferenceIdeal.Read.val_main_v3 (F := Ideal) (m ((c : Thread nD τ).loc main_arg1)) :=
  (Cert.KernelIdeal.HostFold.B_v3 (W4 m ρ c)).trans (w4_v3 m ρ c)
theorem w5_v6 : W5 m ρ c (Proc.devRef .tc main_v6) = Cert.ReferenceIdeal.Read.val_main_v6 (F := Ideal) (m ((c : Thread nD τ).loc main_arg1)) :=
  (Cert.KernelIdeal.HostFold.B_v6 (W4 m ρ c)).trans (w4_v6 m ρ c)
theorem w5_v29 : W5 m ρ c (Proc.devRef .tc main_v29) = Cert.ReferenceIdeal.Read.val_main_v29 (F := Ideal) (m ((c : Thread nD τ).loc main_arg1)) :=
  (Cert.KernelIdeal.HostFold.B_v29 (W4 m ρ c)).trans (w4_v29 m ρ c)
theorem w5_arg2 : W5 m ρ c (Proc.devRef .tc main_arg2) = (m ((c : Thread nD τ).loc main_arg2)) :=
  (Cert.KernelIdeal.HostFold.B_arg2 (W4 m ρ c)).trans (w4_arg2 m ρ c)
theorem w5_arg5 : W5 m ρ c (Proc.devRef .tc main_arg5) = (m ((c : Thread nD τ).loc main_arg5)) :=
  (Cert.KernelIdeal.HostFold.B_arg5 (W4 m ρ c)).trans (w4_arg5 m ρ c)
theorem w5_arg6 : W5 m ρ c (Proc.devRef .tc main_arg6) = (m ((c : Thread nD τ).loc main_arg6)) :=
  (Cert.KernelIdeal.HostFold.B_arg6 (W4 m ρ c)).trans (w4_arg6 m ρ c)
theorem w5_arg7 : W5 m ρ c (Proc.devRef .tc main_arg7) = (m ((c : Thread nD τ).loc main_arg7)) :=
  (Cert.KernelIdeal.HostFold.B_arg7 (W4 m ρ c)).trans (w4_arg7 m ρ c)
theorem w5_arg8 : W5 m ρ c (Proc.devRef .tc main_arg8) = (m ((c : Thread nD τ).loc main_arg8)) :=
  (Cert.KernelIdeal.HostFold.B_arg8 (W4 m ρ c)).trans (w4_arg8 m ρ c)

/-! ## Leaving the second region -/

/-- The second region's output array is relu(agg + b1) · W2, the reference's second product. -/
theorem w6_v45 : W6 m ρ c (Proc.devRef .tc main_v45) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ?_
  rw [Stage1.final (V5 m ρ) c]
  show Stage1.reluW (W5 m ρ c (Proc.devRef .tc main_v43)) (W5 m ρ c (Proc.devRef .tc main_v44)) (W5 m ρ c (Proc.devRef .tc main_arg5)) = _
  rw [w5_v43 m ρ c, w5_v44 m ρ c, w5_arg5 m ρ c]
  exact RefBridge.stage1 _ _ _ _ _
theorem w6_v3 : W6 m ρ c (Proc.devRef .tc main_v3) = Cert.ReferenceIdeal.Read.val_main_v3 (F := Ideal) (m ((c : Thread nD τ).loc main_arg1)) :=
  (W6_of_ne m ρ c main_v3 (by decide)).trans (w5_v3 m ρ c)
theorem w6_v6 : W6 m ρ c (Proc.devRef .tc main_v6) = Cert.ReferenceIdeal.Read.val_main_v6 (F := Ideal) (m ((c : Thread nD τ).loc main_arg1)) :=
  (W6_of_ne m ρ c main_v6 (by decide)).trans (w5_v6 m ρ c)
theorem w6_v29 : W6 m ρ c (Proc.devRef .tc main_v29) = Cert.ReferenceIdeal.Read.val_main_v29 (F := Ideal) (m ((c : Thread nD τ).loc main_arg1)) :=
  (W6_of_ne m ρ c main_v29 (by decide)).trans (w5_v29 m ρ c)
theorem w6_arg2 : W6 m ρ c (Proc.devRef .tc main_arg2) = (m ((c : Thread nD τ).loc main_arg2)) :=
  (W6_of_ne m ρ c main_arg2 (by decide)).trans (w5_arg2 m ρ c)
theorem w6_arg6 : W6 m ρ c (Proc.devRef .tc main_arg6) = (m ((c : Thread nD τ).loc main_arg6)) :=
  (W6_of_ne m ρ c main_arg6 (by decide)).trans (w5_arg6 m ρ c)
theorem w6_arg7 : W6 m ρ c (Proc.devRef .tc main_arg7) = (m ((c : Thread nD τ).loc main_arg7)) :=
  (W6_of_ne m ρ c main_arg7 (by decide)).trans (w5_arg7 m ρ c)
theorem w6_arg8 : W6 m ρ c (Proc.devRef .tc main_arg8) = (m ((c : Thread nD τ).loc main_arg8)) :=
  (W6_of_ne m ρ c main_arg8 (by decide)).trans (w5_arg8 m ρ c)

/-! ## Entering the third region -/

/-- The second message pass is the reference's aggregated second-layer features. -/
theorem w7_v58 : W7 m ρ c (Proc.devRef .tc main_v58) = Cert.ReferenceIdeal.Read.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Cert.KernelIdeal.HostFold.C_v58 (W6 m ρ c) _ _ _ _ _ (w6_v45 m ρ c) (w6_v3 m ρ c) (w6_v6 m ρ c) (w6_v29 m ρ c)
/-- The second bias as a one-row matrix. -/
theorem w7_v59 : W7 m ρ c (Proc.devRef .tc main_v59) = shapeCast S1x2 (m ((c : Thread nD τ).loc main_arg6)) shapeCasts_S2_S1x2 :=
  (Cert.KernelIdeal.HostFold.C_v59 (W6 m ρ c)).trans (congrArg (fun z => shapeCast S1x2 z shapeCasts_S2_S1x2) (w6_arg6 m ρ c))
/-- The head's bias as a one-row matrix. -/
theorem w7_v60 : W7 m ρ c (Proc.devRef .tc main_v60) = shapeCast S1x2 (m ((c : Thread nD τ).loc main_arg8)) shapeCasts_S2_S1x2 :=
  (Cert.KernelIdeal.HostFold.C_v60 (W6 m ρ c)).trans (congrArg (fun z => shapeCast S1x2 z shapeCasts_S2_S1x2) (w6_arg8 m ρ c))
theorem w7_arg2 : W7 m ρ c (Proc.devRef .tc main_arg2) = (m ((c : Thread nD τ).loc main_arg2)) :=
  (Cert.KernelIdeal.HostFold.C_arg2 (W6 m ρ c)).trans (w6_arg2 m ρ c)
theorem w7_arg7 : W7 m ρ c (Proc.devRef .tc main_arg7) = (m ((c : Thread nD τ).loc main_arg7)) :=
  (Cert.KernelIdeal.HostFold.C_arg7 (W6 m ρ c)).trans (w6_arg7 m ρ c)

/-! ## Leaving the third region -/

/-- The third region's output array is (agg + b2) · Wl + bl, the reference's node outputs. -/
theorem w8_v61 : W8 m ρ c (Proc.devRef .tc main_v61) = Cert.ReferenceIdeal.Read.val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 4).trans ?_
  rw [Stage2.final (V7 m ρ) c]
  show Stage2.affW (W7 m ρ c (Proc.devRef .tc main_v58)) (W7 m ρ c (Proc.devRef .tc main_v59)) (W7 m ρ c (Proc.devRef .tc main_arg7)) (W7 m ρ c (Proc.devRef .tc main_v60)) = _
  rw [w7_v58 m ρ c, w7_v59 m ρ c, w7_arg7 m ρ c, w7_v60 m ρ c]
  exact RefBridge.stage2 _ _ _ _ _ _ _ _
theorem w8_arg2 : W8 m ρ c (Proc.devRef .tc main_arg2) = (m ((c : Thread nD τ).loc main_arg2)) :=
  (W8_of_ne m ρ c main_arg2 (by decide)).trans (w7_arg2 m ρ c)

/-! ## At the return -/

/-- The kernel's result buffer ends at the reference's result function of the launch arguments. -/
theorem w9_v73 : W9 m ρ c (Proc.devRef .tc main_v73) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Cert.KernelIdeal.HostFold.D_v73 (W8 m ρ c) _ _ _ _ _ _ _ _ _ (w8_v61 m ρ c) (w8_arg2 m ρ c)

end Cert.KernelIdeal.Chain

end
-- ==== Proof.lean ====
/-
  A two-layer graph convolution with a linear head and a mean pool over graphs, against its plain reference:

      src, dst  = the edge list's two rows with the 200000 self loops appended
      deg       = number of edges into each node;  dinv = where(deg > 0, rsqrt deg, 0);  norm[e] = dinv[src e] · dinv[dst e]
      agg1      = scatter-add over dst of (x · W1)[src e] · norm[e]
      agg2      = scatter-add over dst of (relu(agg1 + b1) · W2)[src e] · norm[e]
      out       = (agg2 + b2) · Wl + bl
      result    = (sum of out over each graph's nodes) / max(number of nodes in the graph, 1)

  The kernel computes the three dense node-level stages  x · W1,  relu(· + b1) · W2,  (· + b2) · Wl + bl  as Pallas
  regions over ten blocks of 20000 rows (casts to bf16 around a matrix-unit product into a zero accumulator) and everything
  else with the same host operations as the reference; the reference computes each dense stage as one matrix product
  over all 200000 rows.

  At the ideal instance a format change is the identity and a product into a zero accumulator is the plain sum over the
  contracted axis, so entry (p, q) of the block that point t writes is entry (20000·t + p, q) of the whole product, and the
  ten blocks tile the rows: each region's output array is the reference's product of the same inputs (Stage0, Stage1,
  Stage2; RefBridge). The host operations between and around the regions are the reference's, operation for operation
  (HostFold), so walking the kernel's run boundary by boundary (FoldChain) its result buffer ends at the reference's
  result function of the launch arguments, and the reference's run ends there too. No algebraic law of the extended
  reals is needed beyond reading both products as the same sums, so the precondition (finite inputs) is not opened.

  The frames of the two kernel programs are the generated frame certificates; the reference's frame is its run with the
  result dropped. The ideal pass rewrote no operation, so there is nothing to preserve.
-/
import proofs.«175485_j32770600469079_2_alg».proof.Defs
import proofs.«175485_j32770600469079_2_alg».proof.Proof.Gen.Kernel
import proofs.«175485_j32770600469079_2_alg».proof.Proof.Gen.Kernel.Skeleton
import proofs.«175485_j32770600469079_2_alg».proof.Proof.Gen.Kernel.Launch
import proofs.«175485_j32770600469079_2_alg».proof.Proof.Gen.Kernel.Points
import proofs.«175485_j32770600469079_2_alg».proof.Proof.Gen.Kernel.Frame
import proofs.«175485_j32770600469079_2_alg».proof.Proof.Gen.KernelIdeal
import proofs.«175485_j32770600469079_2_alg».proof.Proof.Gen.KernelIdeal.Skeleton
import proofs.«175485_j32770600469079_2_alg».proof.Proof.Gen.KernelIdeal.Launch
import proofs.«175485_j32770600469079_2_alg».proof.Proof.Gen.KernelIdeal.Points
import proofs.«175485_j32770600469079_2_alg».proof.Proof.Gen.KernelIdeal.Frame
import proofs.«175485_j32770600469079_2_alg».proof.Proof.Gen.ReferenceIdeal
import proofs.«175485_j32770600469079_2_alg».proof.Proof.Gen.Pre_finite_inputs
import proofs.«175485_j32770600469079_2_alg».proof.Proof.RefRun
import proofs.«175485_j32770600469079_2_alg».proof.Proof.RefRead
import proofs.«175485_j32770600469079_2_alg».proof.Proof.KernelRun
import proofs.«175485_j32770600469079_2_alg».proof.Proof.FoldChain
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the reference's result function of those
    arguments in their result buffers: the kernel's by the walk through its nine segments, the reference's by its run. -/
theorem algebraic : Cert.algebraic_KernelIdeal_ReferenceIdeal := by
  intro m ρ m' ρ' _ hagree
  refine ⟨fun c => Cert.KernelIdeal.Gen.W9 m ρ c (Proc.devRef .tc Cert.KernelIdeal.main_v73),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v80_eq, e0, e1, e2, e3, e4, e5, e6, e7, e8]
  exact (Cert.KernelIdeal.Chain.w9_v73 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
